-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S4x1024x1024, .f32⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .f32 = 32 ∨ (Rect.block (s := S4x1024x1024) S1x1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x4096, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.R0Runs.lean ====
/-
  Region 0 (the accumulation of M = Kᵀ·V over the eight sequence tiles of a batch) — what its three control cases share.
  The grid is 4 × 8, the second coordinate s the sequence tile. The body zeroes its accumulator where s = 0, adds the
  tile's Kᵀ·V to it at every point, and copies it to the output block where s = 7. So a point is in one of three
  cases: s = 0 (zero, then add), 0 < s < 7 (add), s = 7 (add, then copy out). The output window's block index is the
  batch, so its buffer is written back exactly after the points with s = 7 and the body leaves it untouched elsewhere.
-/
import proofs.«149087_j71511205478733_2_alg».proof.Proof.Gen.Kernel.Launch
import proofs.«149087_j71511205478733_2_alg».proof.Proof.Gen.Kernel.Skeleton
import proofs.«149087_j71511205478733_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- "This is the batch's first sequence tile": the body's first test, from the grid coordinates. -/
abbrev cond0_0 (i : grid0.Coords) : Prop :=
  (Scalar.cmpi .ne (Scalar.extui (Scalar.cmpi .eq (BitVec.ofNat 32 (i 1).val) 0#32)) 0#32) = 1#1
/-- It holds at the points whose position is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last sequence tile": the body's second test. -/
abbrev cond0_1 (i : grid0.Coords) : Prop := k0_cond2 i = 1#1
/-- It holds at the points whose position is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last tile the body stores nothing into the output block … -/
theorem idleAt0_3 : ∀ t : Fin cfg0.N, ¬cond0_1 (grid0.coords t) → cfg0.idle 3 (grid0.coords t) = true := by decide +kernel
/-- … and the block is not written back there; -/
theorem noFlush0_3 : ∀ t : Fin cfg0.N, ¬cond0_1 (grid0.coords t) → (cfg0.win 3).flush t = false := by decide +kernel
/-- at a batch's last tile it stores the whole block. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1024x1024 .f32 := (Memref.whole cc0_stg3_0 : Memref sig .tc .vmem S1x1024x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-- The region's plain invariant — every scoped buffer that is no staging buffer of the region at some contents, and the
    generator register at some state — with the accumulator split off as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, owns_whole]; try rfl

end Cert.Kernel.Hand

end
-- ==== Proof.K.R0RunA.lean ====
/-
  Region 0, the case s = 0: the accumulator, whatever it held, is set to zero and the tile's Kᵀ·V added to it; the output
  block's buffer is handed back as it was found. The pieces the accumulator ends with are found by running the body.
-/
import proofs.«149087_j71511205478733_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a batch's first tile, on whole memrefs: the three inputs at their contents, the output's buffer at any
    contents `xi3` (handed back untouched), the accumulator at anything; it ends with the inputs as they were and the
    accumulator with its pieces `LS0` written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨[], ?_, fun xi3 E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunB.lean ====
/-
  Region 0, the case 0 < s < 7: the tile's Kᵀ·V is added to what the accumulator held after the tile before; the output
  block's buffer is handed back as it was found.
-/
import proofs.«149087_j71511205478733_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle tile, on whole memrefs: the inputs at their contents, the output's buffer at any contents `xi3`
    (handed back untouched), the accumulator at `xs0`; it ends with the accumulator with its pieces `LS0` written. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨[], ?_, fun xi3 E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunC.lean ====
/-
  Region 0, the case s = 7: the tile's Kᵀ·V is added to what the accumulator held after the tile before, and the sum is
  copied, whole, into the output block's buffer.
-/
import proofs.«149087_j71511205478733_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a batch's last tile, on whole memrefs: the inputs at their contents, the output's buffer at anything, the
    accumulator at `xs0`; it ends with the output's buffer with its pieces `L3` written and the accumulator with `LS0`. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨?_, ?_, fun E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region0.lean ====
/-
  Region 0 — what the output block's buffer and the accumulator hold after each grid point, and the pipeline's proof data.
  The accumulator after point n is: at a batch's first tile, zero plus that tile's Kᵀ·V; elsewhere, what it held after
  point n − 1 plus this tile's Kᵀ·V. At a batch's last tile the output block's buffer is a copy of the accumulator. The
  region's invariant carries the accumulator's contents from each point to the next; before the first point, and for
  anyone who only needs the buffers back, it is the plain invariant (every scoped buffer at some contents).
-/
import proofs.«149087_j71511205478733_2_alg».proof.Proof.K.R0RunA
import proofs.«149087_j71511205478733_2_alg».proof.Proof.K.R0RunB
import proofs.«149087_j71511205478733_2_alg».proof.Proof.K.R0RunC
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves: the pieces read back -/

/-- s = 0: nothing is stored into the output block's buffer (a placeholder nothing consults). -/
def out0_A_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) : Vec F S1x1024x1024 .f32 :=
  VO0_3.read (Elt F) (VO0_3.writes (Elt F) VO0_3.junk (kernelRun0_A c i arg2 harg2 arg3 harg3 arg4 harg4 arg5 harg5 arg6 harg6 hc0 hc1 x0 x1 x2).1)
/-- s = 0: the accumulator's pieces cover it. -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x1024.size (by sl_kernel_rfl) y
/-- s = 0: what the accumulator is left holding. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 hc0 hc1 x0 x1 x2).2.1)

/-- 0 < s < 7: nothing is stored into the output block's buffer. -/
def out0_B_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) : Vec F S1x1024x1024 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (y : S1024x1024.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x1024.size (by sl_kernel_rfl) y
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- s = 7: the output block's pieces cover it. -/
theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) (y : S1x1024x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1024x1024.size (by sl_kernel_rfl) y
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) : Vec F S1x1024x1024 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) (y : S1024x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1024.size (by sl_kernel_rfl) y
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 hc0 hc1 x0 x1 x2 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, fetched there or not (unfetched, its index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the output block's buffer and the accumulator hold after each point -/

/-- The pair (output buffer, accumulator) a point of the first kind leaves. -/
def caseA (c : Dev nD) (t : Fin cfg0.N) (h0 : t.val % 8 = 0) (h1 : ¬t.val % 8 = 7) : Vec F S1x1024x1024 .f32 × Vec F S1024x1024 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- A middle point, over the accumulator's contents `xs0` before it. -/
def caseB (c : Dev nD) (t : Fin cfg0.N) (h0 : ¬t.val % 8 = 0) (h1 : ¬t.val % 8 = 7) (xs0 : Vec F S1024x1024 .f32) : Vec F S1x1024x1024 .f32 × Vec F S1024x1024 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0)
/-- A batch's last point, over the accumulator's contents `xs0` before it. -/
def caseC (c : Dev nD) (t : Fin cfg0.N) (h0 : ¬t.val % 8 = 0) (h1 : t.val % 8 = 7) (xs0 : Vec F S1024x1024 .f32) : Vec F S1x1024x1024 .f32 × Vec F S1024x1024 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0)

/-- THE ACCUMULATION: what the output block's buffer and the accumulator hold after the body at position `n`. -/
def outsAt0 (c : Dev nD) : (n : ℕ) → n < cfg0.N → Vec F S1x1024x1024 .f32 × Vec F S1024x1024 .f32
  | 0, hn => caseA V c ⟨0, hn⟩ (Nat.zero_mod _) (by show ¬(0 % 8 = 7); decide)
  | n + 1, hn =>
    if h0 : (n + 1) % 8 = 0 then caseA V c ⟨n + 1, hn⟩ h0 (by show ¬((n + 1) % 8 = 7); omega)
    else if h1 : (n + 1) % 8 = 7 then caseC V c ⟨n + 1, hn⟩ h0 h1 (outsAt0 c n (Nat.lt_of_succ_lt hn)).2
    else caseB V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA V c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator carried from point to point -/

/-- The scoped buffers of the other region, each at some contents: they ride through this region untouched. -/
abbrev restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq' (c : Dev nD) :
    (Pipeline.ΦA spec0 c : sProp 𝕄) = iprop(iprop((∃ d, owns (c : Thread nD τ) scM0_0 fullShare d) ∗ restS (F := F) c) ∗ (∃ r, prngReg c r)) :=
  PhiA0_eq c

/-- Before position `n`: before the first point the plain invariant; afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position modulo 8 says which case the point is in;
    the invariant hands the body the accumulator (at what the point before left, or at anything at the very first
    point) and takes it back at this point's contents; where nothing is stored into the output block its buffer is
    handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- the batch's first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold caseA sout0_A_0; (try dsimp only)
      by_cases hz : t.val = 0
      · -- the very first point: the accumulator holds anything
        rw [PhiS_castSucc V c t, PhiS_zero V c _ _ hz, PhiA0_eq']
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · -- a later batch's first tile: what the accumulator held is discarded
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · -- the batch's last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq']
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.K.Region1.lean ====
/- Region 1 of the kernel program (the second TensorCore call, whose body adds to the input block the
   product of the query block with the per-batch matrix and the output projection): the body run symbolically on
   whole staging memrefs, and the pipeline's proof data with its body obligation, at a parameter V — the
   TensorCore's buffer contents when the region is entered. Everything is stated for any float instance. -/
import proofs.«149087_j71511205478733_2_alg».proof.Proof.Gen.Kernel.Launch
import proofs.«149087_j71511205478733_2_alg».proof.Proof.Gen.Kernel.Skeleton
import proofs.«149087_j71511205478733_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (the per-batch matrix, whose block index moves with the batch only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a weight matrix, whose block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (a weight matrix, whose block index never moves). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x512x1024 := Rect.unit (s := S1x512x1024) ![0, 0, 0] S1x512x1024.size inb_S1x512x1024_S1x512x1024_0_0_0
abbrev r1_1 : Rect S1x1024x1024 := Rect.unit (s := S1x1024x1024) ![0, 0, 0] S1x1024x1024.size inb_S1x1024x1024_S1x1024x1024_0_0_0
abbrev r1_2 : Rect S1024x1024 := Rect.unit (s := S1024x1024) ![0, 0] S1024x1024.size inb_S1024x1024_S1024x1024_0_0

/-! ## What the body leaves in the output window's buffer -/

/-- Window 4's staging buffer after the body, from the input windows' blocks: its one store, of the whole buffer. -/
def out1_4 (x0 : Vec F S1x512x1024 .f32) (x1 : Vec F S1x1024x1024 .f32) (x2 : Vec F S1024x1024 .bf16) (x3 : Vec F S1024x1024 .bf16) : Vec F S1x512x1024 .f32 :=
  View.canon [⟨r1_0, k1_pay1 (View.ld x0 r1_0) (View.ld x2 r1_2) (View.ld x1 r1_1) (View.ld x3 r1_2)⟩]

/-- The store covers the buffer. -/
theorem cover1_4 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The kernel body on whole staging memrefs, the inputs' at read contents x0 … x3 and the output's at anything, runs
    to the continuation holding the inputs' as they were and the output's at out1_4 of the inputs'. The body also
    reads the output's buffer before storing into it; what it reads there is not used. -/
theorem sound_kernel1 (c : Dev nD) (E : Set ℕ) (i : grid1.Coords)
    (arg2 : Memref sig .tc .vmem S1x512x1024 .f32) (harg2 : arg2.IsWhole) (arg3 : Memref sig .tc .vmem S1x1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x512x1024 .f32) (harg6 : arg6.IsWhole)
    (x0 : Vec F S1x512x1024 .f32) (x1 : Vec F S1x1024x1024 .f32) (x2 : Vec F S1024x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__context_kernel i arg2 harg2 arg3 harg3 arg4 harg4 arg5 harg5 arg6 harg6) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them; after the body at point t each
    input's buffer at its block and the output's at out1_4 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Frame.lean ====
/-
  The whole program as a chain of three segments — the four weight casts on the host, region 0 (M = Kᵀ·V per batch),
  region 1 (the output rows) — run from the launch to the return. Between segments a core holds every unscoped buffer
  whole at a known valuation: the launch contents, then the host casts applied, then region 0's arrays at what its
  pipeline leaves, then region 1's. The run's post reads every unscoped buffer of the final state at the last
  valuation; the frame claim (the arguments end as launched) and the result's contents are both read off it.
-/
import proofs.«149087_j71511205478733_2_alg».proof.Proof.K.Region0
import proofs.«149087_j71511205478733_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host casts (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host cast and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (hout0 (V1 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W2`, left at `W3`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_noFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, with the result named: the five arguments end as launched and the result array holds what region 1's
    pipeline leaves in its output window's array. -/
theorem frame_val : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (frame_val m ρ)

end Cert.Kernel.Hand

end
-- ==== Proof.KI.R0Runs.lean ====
/-
  Region 0 (the accumulation of M = Kᵀ·V over the eight sequence tiles of a batch) — what its three control cases share.
  The grid is 4 × 8, the second coordinate s the sequence tile. The body zeroes its accumulator where s = 0, adds the
  tile's Kᵀ·V to it at every point, and copies it to the output block where s = 7. So a point is in one of three
  cases: s = 0 (zero, then add), 0 < s < 7 (add), s = 7 (add, then copy out). The output window's block index is the
  batch, so its buffer is written back exactly after the points with s = 7 and the body leaves it untouched elsewhere.
-/
import proofs.«149087_j71511205478733_2_alg».proof.Proof.Gen.KernelIdeal.Launch
import proofs.«149087_j71511205478733_2_alg».proof.Proof.Gen.KernelIdeal.Skeleton
import proofs.«149087_j71511205478733_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- "This is the batch's first sequence tile": the body's first test, from the grid coordinates. -/
abbrev cond0_0 (i : grid0.Coords) : Prop :=
  (Scalar.cmpi .ne (Scalar.extui (Scalar.cmpi .eq (BitVec.ofNat 32 (i 1).val) 0#32)) 0#32) = 1#1
/-- It holds at the points whose position is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last sequence tile": the body's second test. -/
abbrev cond0_1 (i : grid0.Coords) : Prop := k0_cond2 i = 1#1
/-- It holds at the points whose position is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch's last tile the body stores nothing into the output block … -/
theorem idleAt0_3 : ∀ t : Fin cfg0.N, ¬cond0_1 (grid0.coords t) → cfg0.idle 3 (grid0.coords t) = true := by decide +kernel
/-- … and the block is not written back there; -/
theorem noFlush0_3 : ∀ t : Fin cfg0.N, ¬cond0_1 (grid0.coords t) → (cfg0.win 3).flush t = false := by decide +kernel
/-- at a batch's last tile it stores the whole block. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1024x1024 .f32 := (Memref.whole cc0_stg3_0 : Memref sig .tc .vmem S1x1024x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
/-- The accumulator as a view: what it holds is stated through it. -/
abbrev VS0_0 : View sig .tc .vmem S1024x1024 .f32 := scM0_0.view

/-- The region's plain invariant — every scoped buffer that is no staging buffer of the region at some contents, and the
    generator register at some state — with the accumulator split off as a memref owned at some contents. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, owns_whole]; try rfl

end Cert.KernelIdeal.Hand

end
-- ==== Proof.KI.R0RunA.lean ====
/-
  Region 0, the case s = 0: the accumulator, whatever it held, is set to zero and the tile's Kᵀ·V added to it; the output
  block's buffer is handed back as it was found. The pieces the accumulator ends with are found by running the body.
-/
import proofs.«149087_j71511205478733_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a batch's first tile, on whole memrefs: the three inputs at their contents, the output's buffer at any
    contents `xi3` (handed back untouched), the accumulator at anything; it ends with the inputs as they were and the
    accumulator with its pieces `LS0` written. -/
noncomputable def kernelRun0_A (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i)
    (x0 : Vec F S1x512x1024 .f32) (x1 : Vec F S1024x1024 .bf16) (x2 : Vec F S1024x1024 .bf16) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨[], ?_, fun xi3 E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
/-
  Region 0, the case 0 < s < 7: the tile's Kᵀ·V is added to what the accumulator held after the tile before; the output
  block's buffer is handed back as it was found.
-/
import proofs.«149087_j71511205478733_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle tile, on whole memrefs: the inputs at their contents, the output's buffer at any contents `xi3`
    (handed back untouched), the accumulator at `xs0`; it ends with the accumulator with its pieces `LS0` written. -/
noncomputable def kernelRun0_B (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .f32)), { LS0 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨[], ?_, fun xi3 E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
/-
  Region 0, the case s = 7: the tile's Kᵀ·V is added to what the accumulator held after the tile before, and the sum is
  copied, whole, into the output block's buffer.
-/
import proofs.«149087_j71511205478733_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a batch's last tile, on whole memrefs: the inputs at their contents, the output's buffer at anything, the
    accumulator at `xs0`; it ends with the output's buffer with its pieces `L3` written and the accumulator with `LS0`. -/
noncomputable def kernelRun0_C (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i)
    (x0 : Vec F S1x512x1024 .f32) (x1 : Vec F S1024x1024 .bf16) (x2 : Vec F S1024x1024 .bf16) (xs0 : Vec F S1024x1024 .f32) :
    Σ' (L3 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__k_v_and_m_kernel i arg2 harg2 arg3 harg3 arg4 harg4 arg5 harg5 arg6 harg6) K } := by
  refine ⟨?_, ?_, fun E K => ?run⟩
  case run =>
    simp only [cc0__k_v_and_m_kernel_eq_skeleton]; unfold cc0__k_v_and_m_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region0.lean ====
/-
  Region 0 — what the output block's buffer and the accumulator hold after each grid point, and the pipeline's proof data.
  The accumulator after point n is: at a batch's first tile, zero plus that tile's Kᵀ·V; elsewhere, what it held after
  point n − 1 plus this tile's Kᵀ·V. At a batch's last tile the output block's buffer is a copy of the accumulator. The
  region's invariant carries the accumulator's contents from each point to the next; before the first point, and for
  anyone who only needs the buffers back, it is the plain invariant (every scoped buffer at some contents).
-/
import proofs.«149087_j71511205478733_2_alg».proof.Proof.KI.R0RunA
import proofs.«149087_j71511205478733_2_alg».proof.Proof.KI.R0RunB
import proofs.«149087_j71511205478733_2_alg».proof.Proof.KI.R0RunC
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves: the pieces read back -/

/-- s = 0: nothing is stored into the output block's buffer (a placeholder nothing consults). -/
def out0_A_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) : Vec F S1x1024x1024 .f32 :=
  VO0_3.read (Elt F) (VO0_3.writes (Elt F) VO0_3.junk (kernelRun0_A c i arg2 harg2 arg3 harg3 arg4 harg4 arg5 harg5 arg6 harg6 hc0 hc1 x0 x1 x2).1)
/-- s = 0: the accumulator's pieces cover it. -/
theorem scover0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) (y : S1024x1024.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x1024.size (by sl_kernel_rfl) y
/-- s = 0: what the accumulator is left holding. -/
def sout0_A_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 hc0 hc1 x0 x1 x2).2.1)

/-- 0 < s < 7: nothing is stored into the output block's buffer. -/
def out0_B_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) : Vec F S1x1024x1024 .f32 :=
  VO0_3.read (Elt F) (VO0_3.writes (Elt F) VO0_3.junk (kernelRun0_B c i arg2 harg2 arg3 harg3 arg4 harg4 arg5 harg5 arg6 harg6 hc0 hc1 x0 x1 x2 xs0).1)
theorem scover0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) (y : S1024x1024.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1024x1024.size (by sl_kernel_rfl) y
def sout0_B_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- s = 7: the output block's pieces cover it. -/
theorem cover0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) (y : S1x1024x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1024x1024.size (by sl_kernel_rfl) y
def out0_C_3 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) : Vec F S1x1024x1024 .f32 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) (y : S1024x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1024.size (by sl_kernel_rfl) y
def sout0_C_0 (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 hc0 hc1 x0 x1 x2 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, fetched there or not (unfetched, its index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the output block's buffer and the accumulator hold after each point -/

/-- The pair (output buffer, accumulator) a point of the first kind leaves. -/
def caseA (c : Dev nD) (t : Fin cfg0.N) (h0 : t.val % 8 = 0) (h1 : ¬t.val % 8 = 7) : Vec F S1x1024x1024 .f32 × Vec F S1024x1024 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t))
/-- A middle point, over the accumulator's contents `xs0` before it. -/
def caseB (c : Dev nD) (t : Fin cfg0.N) (h0 : ¬t.val % 8 = 0) (h1 : ¬t.val % 8 = 7) (xs0 : Vec F S1024x1024 .f32) : Vec F S1x1024x1024 .f32 × Vec F S1024x1024 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) xs0)
/-- A batch's last point, over the accumulator's contents `xs0` before it. -/
def caseC (c : Dev nD) (t : Fin cfg0.N) (h0 : ¬t.val % 8 = 0) (h1 : t.val % 8 = 7) (xs0 : Vec F S1024x1024 .f32) : Vec F S1x1024x1024 .f32 × Vec F S1024x1024 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) xs0)

/-- THE ACCUMULATION: what the output block's buffer and the accumulator hold after the body at position `n`. -/
def outsAt0 (c : Dev nD) : (n : ℕ) → n < cfg0.N → Vec F S1x1024x1024 .f32 × Vec F S1024x1024 .f32
  | 0, hn => caseA V c ⟨0, hn⟩ (Nat.zero_mod _) (by show ¬(0 % 8 = 7); decide)
  | n + 1, hn =>
    if h0 : (n + 1) % 8 = 0 then caseA V c ⟨n + 1, hn⟩ h0 (by show ¬((n + 1) % 8 = 7); omega)
    else if h1 : (n + 1) % 8 = 7 then caseC V c ⟨n + 1, hn⟩ h0 h1 (outsAt0 c n (Nat.lt_of_succ_lt hn)).2
    else caseB V c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 V c t.val t.isLt = caseA V c t h0 h1 := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = caseB V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt = caseC V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-! ## The invariant: the accumulator carried from point to point -/

/-- The scoped buffers of the other region, each at some contents: they ride through this region untouched. -/
abbrev restS (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem PhiA0_eq' (c : Dev nD) :
    (Pipeline.ΦA spec0 c : sProp 𝕄) = iprop(iprop((∃ d, owns (c : Thread nD τ) scM0_0 fullShare d) ∗ restS (F := F) c) ∗ (∃ r, prngReg c r)) :=
  PhiA0_eq c

/-- Before position `n`: before the first point the plain invariant; afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ restS (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the position modulo 8 says which case the point is in;
    the invariant hands the body the accumulator (at what the point before left, or at anything at the very first
    point) and takes it back at this point's contents; where nothing is stored into the output block its buffer is
    handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- the batch's first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold caseA sout0_A_0; (try dsimp only)
      by_cases hz : t.val = 0
      · -- the very first point: the accumulator holds anything
        rw [PhiS_castSucc V c t, PhiS_zero V c _ _ hz, PhiA0_eq']
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · -- a later batch's first tile: what the accumulator held is discarded
        rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    · -- the batch's last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold caseC out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold caseB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the plain one back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq']
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.KI.Region1.lean ====
/- Region 1 of the idealized kernel program (the second TensorCore call, whose body adds to the input block the
   product of the query block with the per-batch matrix and the output projection): the body run symbolically on
   whole staging memrefs, and the pipeline's proof data with its body obligation, at a parameter V — the
   TensorCore's buffer contents when the region is entered. Everything is stated for any float instance. -/
import proofs.«149087_j71511205478733_2_alg».proof.Proof.Gen.KernelIdeal.Launch
import proofs.«149087_j71511205478733_2_alg».proof.Proof.Gen.KernelIdeal.Skeleton
import proofs.«149087_j71511205478733_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long axes recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (the per-batch matrix, whose block index moves with the batch only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a weight matrix, whose block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (a weight matrix, whose block index never moves). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x512x1024 := Rect.unit (s := S1x512x1024) ![0, 0, 0] S1x512x1024.size inb_S1x512x1024_S1x512x1024_0_0_0
abbrev r1_1 : Rect S1x1024x1024 := Rect.unit (s := S1x1024x1024) ![0, 0, 0] S1x1024x1024.size inb_S1x1024x1024_S1x1024x1024_0_0_0
abbrev r1_2 : Rect S1024x1024 := Rect.unit (s := S1024x1024) ![0, 0] S1024x1024.size inb_S1024x1024_S1024x1024_0_0

/-! ## What the body leaves in the output window's buffer -/

/-- Window 4's staging buffer after the body, from the input windows' blocks: its one store, of the whole buffer. -/
def out1_4 (x0 : Vec F S1x512x1024 .f32) (x1 : Vec F S1x1024x1024 .f32) (x2 : Vec F S1024x1024 .bf16) (x3 : Vec F S1024x1024 .bf16) : Vec F S1x512x1024 .f32 :=
  View.canon [⟨r1_0, k1_pay1 (View.ld x0 r1_0) (View.ld x2 r1_2) (View.ld x1 r1_1) (View.ld x3 r1_2)⟩]

/-- The store covers the buffer. -/
theorem cover1_4 (p0 : Vec F S1x512x1024 .f32) (y : S1x512x1024.Idx) :
    ∃ pc ∈ ([⟨r1_0, p0⟩] : List (View.Piece (Elt F) S1x512x1024 .f32)), y ∈ pc.1.set :=
  View.cover_of_tiled [⟨r1_0, p0⟩] S1x512x1024.size (by rfl) y

/-! ## The body's triple -/

set_option maxHeartbeats 1000000 in
/-- The kernel body on whole staging memrefs, the inputs' at read contents x0 … x3 and the output's at anything, runs
    to the continuation holding the inputs' as they were and the output's at out1_4 of the inputs'. The body also
    reads the output's buffer before storing into it; what it reads there is not used. -/
theorem sound_kernel1 (c : Dev nD) (E : Set ℕ) (i : grid1.Coords)
    (arg2 : Memref sig .tc .vmem S1x512x1024 .f32) (harg2 : arg2.IsWhole) (arg3 : Memref sig .tc .vmem S1x1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1x512x1024 .f32) (harg6 : arg6.IsWhole)
    (x0 : Vec F S1x512x1024 .f32) (x1 : Vec F S1x1024x1024 .f32) (x2 : Vec F S1024x1024 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__context_kernel i arg2 harg2 arg3 harg3 arg4 harg4 arg5 harg5 arg6 harg6) K := by
  simp only [cc1__context_kernel_eq_skeleton]; unfold cc1__context_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them; after the body at point t each
    input's buffer at its block and the output's at out1_4 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Frame.lean ====
/-
  The whole program as a chain of three segments — the four weight casts on the host, region 0 (M = Kᵀ·V per batch),
  region 1 (the output rows) — run from the launch to the return. Between segments a core holds every unscoped buffer
  whole at a known valuation: the launch contents, then the host casts applied, then region 0's arrays at what its
  pipeline leaves, then region 1's. The run's post reads every unscoped buffer of the final state at the last
  valuation; the frame claim (the arguments end as launched) and the result's contents are both read off it.
-/
import proofs.«149087_j71511205478733_2_alg».proof.Proof.KI.Region0
import proofs.«149087_j71511205478733_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host casts (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host cast and no region writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noFresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BI.Entails.trans (hout0 (V1 m ρ) c) ?_
    unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W2`, left at `W3`. Its arrays are
    split out of the unscoped buffers and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_noFresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME, with the result named: the five arguments end as launched and the result array holds what region 1's
    pipeline leaves in its output window's array. -/
theorem frame_val : θ_run defs (onTc (τ := τ) (main (F := F))) ⟨m, fun _ => 0, ρ⟩ (fun r => ∀ c : Dev nD,
      r.2.mem ((c.tc : Thread nD τ).loc main_v5) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun s h c =>
    ⟨(h c _ (mem_uc main_v5 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (frame_val m ρ)

end Cert.KernelIdeal.Hand

end
-- ==== Proof.KI.ValFacts.lean ====
/-
  The buffer contents the two regions are entered from, named. The host casts write the four narrowed weights and
  nothing else; region 0 writes its output array and nothing else. So region 0 finds the input x as launched and the
  narrowed Wk, Wv; region 1 finds x as launched, the narrowed Wq and P, and what region 0's pipeline leaves in its
  output array. On the extended reals a change of format is the identity, so there a narrowed weight is the weight.
-/
import proofs.«149087_j71511205478733_2_alg».proof.Proof.KI.Frame
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyInstance

variable {F : FTy → Type} [FloatOps F]
variable (m : (ℓ : Loc nD τ sig) → Buf (Elt F) ℓ) (ρ : Dev nD → PrngReg)

/-! ## After the host casts -/

/-- The input x is no cast's result. -/
theorem V1_main_arg0 (c : Dev nD) : V1 m ρ c main_arg0 = m ((c : Thread nD τ).loc main_arg0) := by
  show StableHlo.after hostOps0 (W0 m ρ c) (Proc.devRef .tc main_arg0) = _
  after_results

/-- The first cast's result is the narrowed Wq. -/
theorem V1_main_v0 (c : Dev nD) :
    V1 m ρ c main_v0 = truncf .bf16 (m ((c : Thread nD τ).loc main_arg1)) bitsLt_bf16_f32 := by
  show StableHlo.after hostOps0 (W0 m ρ c) (Proc.devRef .tc main_v0) = _
  after_results

/-- The second cast's result is the narrowed Wk. -/
theorem V1_main_v1 (c : Dev nD) :
    V1 m ρ c main_v1 = truncf .bf16 (m ((c : Thread nD τ).loc main_arg2)) bitsLt_bf16_f32 := by
  show StableHlo.after hostOps0 (W0 m ρ c) (Proc.devRef .tc main_v1) = _
  after_results

/-- The third cast's result is the narrowed Wv. -/
theorem V1_main_v2 (c : Dev nD) :
    V1 m ρ c main_v2 = truncf .bf16 (m ((c : Thread nD τ).loc main_arg3)) bitsLt_bf16_f32 := by
  show StableHlo.after hostOps0 (W0 m ρ c) (Proc.devRef .tc main_v2) = _
  after_results

/-- The fourth cast's result is the narrowed P. -/
theorem V1_main_v3 (c : Dev nD) :
    V1 m ρ c main_v3 = truncf .bf16 (m ((c : Thread nD τ).loc main_arg4)) bitsLt_bf16_f32 := by
  show StableHlo.after hostOps0 (W0 m ρ c) (Proc.devRef .tc main_v3) = _
  after_results

/-! ## After region 0 -/

/-- The input x is an input window of region 0: its array is never written back. -/
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_main_arg0 m ρ c)

/-- The narrowed Wq is no window of region 0. -/
theorem V2_main_v0 (c : Dev nD) :
    V2 m ρ c main_v0 = truncf .bf16 (m ((c : Thread nD τ).loc main_arg1)) bitsLt_bf16_f32 :=
  (W2_of_ne m ρ c main_v0 (by decide)).trans (V1_main_v0 m ρ c)

/-- The narrowed P is no window of region 0. -/
theorem V2_main_v3 (c : Dev nD) :
    V2 m ρ c main_v3 = truncf .bf16 (m ((c : Thread nD τ).loc main_arg4)) bitsLt_bf16_f32 :=
  (W2_of_ne m ρ c main_v3 (by decide)).trans (V1_main_v3 m ρ c)

/-- Region 0's output array holds what its pipeline leaves there. -/
theorem V2_main_v4 (c : Dev nD) : V2 m ρ c main_v4 = (dat0 (V1 m ρ) c).arrAt 3 cfg0.N :=
  W2_arr m ρ c 3

end AnyInstance

/-! ## On the extended reals: a narrowed weight is the weight -/

section AtIdeal

variable (m : (ℓ : Loc nD τ sig) → Buf (Elt Ideal) ℓ) (ρ : Dev nD → PrngReg)

theorem V1_main_v1_at (c : Dev nD) (i : S1024x1024.Idx) :
    V1 m ρ c main_v1 i = m ((c : Thread nD τ).loc main_arg2) i :=
  congrFun (V1_main_v1 m ρ c) i

theorem V1_main_v2_at (c : Dev nD) (i : S1024x1024.Idx) :
    V1 m ρ c main_v2 i = m ((c : Thread nD τ).loc main_arg3) i :=
  congrFun (V1_main_v2 m ρ c) i

theorem V2_main_v0_at (c : Dev nD) (i : S1024x1024.Idx) :
    V2 m ρ c main_v0 i = m ((c : Thread nD τ).loc main_arg1) i :=
  congrFun (V2_main_v0 m ρ c) i

theorem V2_main_v3_at (c : Dev nD) (i : S1024x1024.Idx) :
    V2 m ρ c main_v3 i = m ((c : Thread nD τ).loc main_arg4) i :=
  congrFun (V2_main_v3 m ρ c) i

theorem V1_main_arg0_at (c : Dev nD) (i : S4x4096x1024.Idx) :
    V1 m ρ c main_arg0 i = m ((c : Thread nD τ).loc main_arg0) i :=
  congrFun (V1_main_arg0 m ρ c) i

theorem V2_main_arg0_at (c : Dev nD) (i : S4x4096x1024.Idx) :
    V2 m ρ c main_arg0 i = m ((c : Thread nD τ).loc main_arg0) i :=
  congrFun (V2_main_arg0 m ρ c) i

end AtIdeal

end Cert.KernelIdeal.Hand

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibRowsContracted.lean ====
/-
  A matrix product `[n, a]ᵀ × [n, b]` (both operands contracted on their rows, no batch axis) into the zero
  accumulator, read at an entry on the extended reals: entry `(i, j)` is the sum over `k` of the left operand at
  `(k, i)` times the right operand at `(k, j)`. General over the three extents, the two operand formats and the
  precision.
-/
import Idealize.ShloMosaic.Lib.ValueIdx
import Idealize.ShloMosaic.PureOps.Ideal.Laws

noncomputable section

open scoped BigOperators

namespace Cert.LibRowsContracted

open Idealize.ShloMosaic Idealize.ShloMosaic.ValueIdx

/-- The dimension numbers `<[0], [0], [1], [1], [0, 1, 1, 1], [], []>`: `K×M` by `K×N`, both operands contracted on
    their first axis, the result `M×N`. -/
def rowsContracted (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {n a b : ℕ}

/-- The left operand's index at output entry `i` and contraction index `q`: the contraction coordinate as its row … -/
theorem lhs_row (i : (⟨2, ![a, b]⟩ : Shape).Idx) (q : (rowsContracted n a b).contr.Idx) :
    ((rowsContracted n a b).lhsIdx i q 0).val = (q (⟨0, Nat.one_pos⟩ : Fin (rowsContracted n a b).contr.rank)).val :=
  (rowsContracted n a b).lhsIdx_val_of_single rfl i q

/-- … and column `i 0`. -/
theorem lhs_col (i : (⟨2, ![a, b]⟩ : Shape).Idx) (q : (rowsContracted n a b).contr.Idx) :
    ((rowsContracted n a b).lhsIdx i q 1).val = (i 0).val := rfl

/-- The right operand's index: the contraction coordinate as its row … -/
theorem rhs_row (i : (⟨2, ![a, b]⟩ : Shape).Idx) (q : (rowsContracted n a b).contr.Idx) :
    ((rowsContracted n a b).rhsIdx i q 0).val = (q (⟨0, Nat.one_pos⟩ : Fin (rowsContracted n a b).contr.rank)).val :=
  (rowsContracted n a b).rhsIdx_val_of_single rfl i q

/-- … and column `i 1`. -/
theorem rhs_col (i : (⟨2, ![a, b]⟩ : Shape).Idx) (q : (rowsContracted n a b).contr.Idx) :
    ((rowsContracted n a b).rhsIdx i q 1).val = (i 1).val := rfl

/-- A product of the transposed left operand with the right one into the zero accumulator, at entry `(i, j)`, is
    `Σₖ A (k, i) · B (k, j)`. -/
theorem matmul_zero_apply {φ₁ φ₂ : FTy} (prec : Option ContractPrecision) (A : FVec Ideal ⟨2, ![n, a]⟩ φ₁)
    (B : FVec Ideal ⟨2, ![n, b]⟩ φ₂) (i : Fin a) (j : Fin b) :
    FloatOps.matmul (rowsContracted n a b) prec A B (constant ⟨2, ![a, b]⟩ .f32 0x00000000#32) (ix2 i j)
      = ∑ k : Fin n, A (ix2 k i) * B (ix2 k j) := by
  rw [Ideal.matmul_constant_zero_apply, ← Equiv.sum_comp (contrEquiv1 (rowsContracted n a b) n rfl rfl).symm]
  refine Finset.sum_congr rfl fun k _ => ?_
  have hk := contrEquiv1_symm_val (rowsContracted n a b) n rfl rfl k
  have el : (rowsContracted n a b).lhsIdx (ix2 i j) ((contrEquiv1 (rowsContracted n a b) n rfl rfl).symm k) = ix2 k i :=
    funext fun c => Fin.ext (by
      match c with
      | ⟨0, _⟩ => exact (lhs_row _ _).trans hk
      | ⟨1, _⟩ => exact lhs_col _ _)
  have er : (rowsContracted n a b).rhsIdx (ix2 i j) ((contrEquiv1 (rowsContracted n a b) n rfl rfl).symm k) = ix2 k j :=
    funext fun c => Fin.ext (by
      match c with
      | ⟨0, _⟩ => exact (rhs_row _ _).trans hk
      | ⟨1, _⟩ => exact rhs_col _ _)
  rw [el, er]

end Cert.LibRowsContracted

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.KI.PayValue.lean ====
/-
  The kernel bodies' stored values read at an entry, on the extended reals, where a change of format is the identity.

  Region 0's body stores, at its first sequence tile, the zero matrix; at every tile, the accumulator plus the tile's
  contribution Kᵀ·V, where K and V are the tile's 512 rows times the two weight matrices; and at the last tile the
  accumulator under a leading unit axis. Region 1's body stores the tile's rows plus ((rows·Wq)·M)·P. Each is read
  here at one entry as the evident finite sum: a plain product at (r, j) is Σₖ A(r,k)·B(k,j), a product of two blocks
  contracted on their rows at (i, j) is Σₜ A(t,i)·B(t,j), a [1,R,C] block seen as an [R,C] matrix reads the block at
  (0,r,c), and a cast to the same shape reads the operand.
-/
import proofs.«149087_j71511205478733_2_alg».proof.Proof.Gen.KernelIdeal.Skeleton
import proofs.«149087_j71511205478733_2_alg».proof.Proof.LibPlainMatmul
import proofs.«149087_j71511205478733_2_alg».proof.Proof.LibRowsContracted
import proofs.«149087_j71511205478733_2_alg».proof.Proof.LibBlockLayout
import Idealize.ShloMosaic.Lib.ValueIdx
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-- Narrowing an f32 block to bf16 is the identity on extended reals. -/
theorem trunc_at {s : Shape} (a : FVec Ideal s .f32) (h : FTy.bits .bf16 < FTy.bits .f32) (i : s.Idx) :
    (truncf .bf16 a h : FVec Ideal s .bf16) i = a i := rfl

/-- The printed plain product's dimension numbers are the library's `M×K` by `K×N` ones. -/
theorem dotPlain_eq : dot_S512x1024_S1024x1024_S512x1024_1_0_0_1_n_n = DotDims.plain 512 1024 1024 := rfl

/-- The printed product contracted on both operands' rows has the general rows-contracted dimension numbers. -/
theorem dotRows_eq :
    dot_S512x1024_S512x1024_S1024x1024_0_0_1_1_n_n = Cert.LibRowsContracted.rowsContracted 512 1024 1024 := rfl

/-- The value stored at the first sequence tile is the zero matrix. -/
theorem pay1_zero (k v : Fin 1024) : k0_pay1 (F := Ideal) (ix2 k v) = 0 := by
  unfold k0_pay1
  refine (congrFun (shapeCast_self _ _) _).trans ?_
  exact Ideal.ofBits_zero_f32

/-- The value stored at every sequence tile: the accumulator at (k, v) plus Σₜ K(t,k)·V(t,v) over the tile's 512 rows,
    with K(t,k) = Σ_d x(t,d)·Wk(d,k) and V(t,v) = Σ_d x(t,d)·Wv(d,v). -/
theorem pay2_at (v3 : Vec Ideal S1x512x1024 .f32) (v6 v8 : Vec Ideal S1024x1024 .bf16) (v15 : Vec Ideal S1024x1024 .f32)
    (k v : Fin 1024) :
    k0_pay2 (F := Ideal) v3 v6 v8 v15 (ix2 k v)
      = v15 (ix2 k v) + ∑ t : Fin 512, (∑ d : Fin 1024, v3 (ix3 (0 : Fin 1) t d) * v6 (ix2 d k))
          * (∑ d : Fin 1024, v3 (ix3 (0 : Fin 1) t d) * v8 (ix2 d v)) := by
  unfold k0_pay2
  refine (congrFun (shapeCast_self _ _) _).trans ?_
  refine (addf_apply _ _ _).trans ?_
  refine congrArg (v15 (ix2 k v) + ·) ?_
  refine (Cert.LibRowsContracted.matmul_zero_apply (n := 512) (a := 1024) (b := 1024) none _ _ k v).trans ?_
  refine Finset.sum_congr rfl fun t _ => ?_
  refine congrArg₂ (· * ·) ?_ ?_
  · refine (trunc_at _ _ _).trans ?_
    refine (Cert.LibPlainMatmul.matmul_zero_apply (a := 512) (n := 1024) (b := 1024) none _ _ t k).trans ?_
    refine Finset.sum_congr rfl fun d _ => ?_
    refine congrArg₂ (· * ·) ?_ ?_
    · exact (trunc_at _ _ _).trans (Cert.LibBlockLayout.dropUnit_at v3 _ t d)
    · exact congrFun (shapeCast_self v6 _) _
  · refine (trunc_at _ _ _).trans ?_
    refine (Cert.LibPlainMatmul.matmul_zero_apply (a := 512) (n := 1024) (b := 1024) none _ _ t v).trans ?_
    refine Finset.sum_congr rfl fun d _ => ?_
    refine congrArg₂ (· * ·) ?_ ?_
    · exact (trunc_at _ _ _).trans (Cert.LibBlockLayout.dropUnit_at v3 _ t d)
    · exact congrFun (shapeCast_self v8 _) _

/-- The value stored at the last sequence tile is the accumulator under a leading unit axis. -/
theorem pay3_at (v23 : Vec Ideal S1024x1024 .f32) (k v : Fin 1024) :
    k0_pay3 (F := Ideal) v23 (ix3 (0 : Fin 1) k v) = v23 (ix2 k v) := by
  unfold k0_pay3
  exact Cert.LibBlockLayout.addUnit_at v23 _ k v

/-- Region 1's stored value at (r, o): the tile's row entry plus Σ_v (Σ_k Q(r,k)·M(k,v))·P(v,o), with
    Q(r,k) = Σ_d x(r,d)·Wq(d,k). -/
theorem pay1_at (v0 : Vec Ideal S1x512x1024 .f32) (v3 : Vec Ideal S1024x1024 .bf16) (v5 : Vec Ideal S1x1024x1024 .f32)
    (v8 : Vec Ideal S1024x1024 .bf16) (r : Fin 512) (o : Fin 1024) :
    k1_pay1 (F := Ideal) v0 v3 v5 v8 (ix3 (0 : Fin 1) r o)
      = v0 (ix3 (0 : Fin 1) r o) + ∑ v : Fin 1024, (∑ k : Fin 1024, (∑ d : Fin 1024, v0 (ix3 (0 : Fin 1) r d) * v3 (ix2 d k))
          * v5 (ix3 (0 : Fin 1) k v)) * v8 (ix2 v o) := by
  unfold k1_pay1
  refine (Cert.LibBlockLayout.addUnit_at _ _ r o).trans ?_
  refine (addf_apply _ _ _).trans ?_
  refine congrArg₂ (· + ·) (Cert.LibBlockLayout.dropUnit_at v0 _ r o) ?_
  refine (Cert.LibPlainMatmul.matmul_zero_apply (a := 512) (n := 1024) (b := 1024) none _ _ r o).trans ?_
  refine Finset.sum_congr rfl fun v _ => ?_
  refine congrArg₂ (· * ·) ?_ (congrFun (shapeCast_self v8 _) _)
  refine (trunc_at _ _ _).trans ?_
  refine (Cert.LibPlainMatmul.matmul_zero_apply (a := 512) (n := 1024) (b := 1024) none _ _ r v).trans ?_
  refine Finset.sum_congr rfl fun k _ => ?_
  refine congrArg₂ (· * ·) ?_ ?_
  · refine (trunc_at _ _ _).trans ?_
    refine (Cert.LibPlainMatmul.matmul_zero_apply (a := 512) (n := 1024) (b := 1024) none _ _ r k).trans ?_
    refine Finset.sum_congr rfl fun d _ => ?_
    refine congrArg₂ (· * ·) ?_ (congrFun (shapeCast_self v3 _) _)
    exact (trunc_at _ _ _).trans (Cert.LibBlockLayout.dropUnit_at v0 _ r d)
  · exact (trunc_at _ _ _).trans (Cert.LibBlockLayout.dropUnit_at v5 _ k v)

end Cert.KernelIdeal.PayValue

end
-- ==== Proof.KI.Value1.lean ====
/- Region 1's output array as one function of the arrays the region finds, over the extended reals: the point of the
   grid at batch b and sequence tile j writes rows j·512 … j·512+511 of batch b, each entry the input entry plus
   Σ_v (Σ_k (Σ_d x(b,s,d)·Wq(d,k))·M(b,k,v))·P(v,o); the tiles cover the array. -/
import proofs.«149087_j71511205478733_2_alg».proof.Proof.KI.Region1
import proofs.«149087_j71511205478733_2_alg».proof.Proof.KI.PayValue
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The specification -/

/-- The output at batch b, row s, column o. -/
def G1at (x : FVec Ideal S4x4096x1024 .f32) (M : FVec Ideal S4x1024x1024 .f32) (wq p : FVec Ideal S1024x1024 .bf16)
    (b : Fin 4) (s : Fin 4096) (o : Fin 1024) : EReal :=
  x (ix3 b s o) + ∑ v : Fin 1024, (∑ k : Fin 1024, (∑ d : Fin 1024, x (ix3 b s d) * wq (ix2 d k)) * M (ix3 b k v)) * p (ix2 v o)

/-- The output array, index by index. -/
def G1 (x : FVec Ideal S4x4096x1024 .f32) (M : FVec Ideal S4x1024x1024 .f32) (wq p : FVec Ideal S1024x1024 .bf16) :
    FVec Ideal S4x4096x1024 .f32 := fun i => G1at x M wq p (i 0) (i 1) (i 2)

theorem G1_ix3 (x : FVec Ideal S4x4096x1024 .f32) (M : FVec Ideal S4x1024x1024 .f32) (wq p : FVec Ideal S1024x1024 .bf16)
    (b : Fin 4) (s : Fin 4096) (o : Fin 1024) : G1 x M wq p (ix3 b s o) = G1at x M wq p b s o := rfl

/-- Row r of sequence tile j. -/
def row (j : Fin 8) (r : Fin 512) : Fin 4096 := ⟨j.val * 512 + r.val, by omega⟩

theorem row_val (j : Fin 8) (r : Fin 512) : (row j r).val = j.val * 512 + r.val := rfl

/-! ## The stored value at a point whose blocks are restrictions of the arrays -/

/-- When the four input blocks are the arrays read at batch b and sequence tile j, the stored value at (r, o) is the
    specification at batch b, row j·512 + r, column o. -/
theorem pay_block (X : FVec Ideal S4x4096x1024 .f32) (M : FVec Ideal S4x1024x1024 .f32) (wq p : FVec Ideal S1024x1024 .bf16)
    (x0 : Vec Ideal S1x512x1024 .f32) (x1 : Vec Ideal S1x1024x1024 .f32) (x2 x3 : Vec Ideal S1024x1024 .bf16)
    (b : Fin 4) (j : Fin 8)
    (h0 : ∀ (r : Fin 512) (d : Fin 1024), x0 (ix3 (0 : Fin 1) r d) = X (ix3 b (row j r) d))
    (h1 : ∀ (k v : Fin 1024), x1 (ix3 (0 : Fin 1) k v) = M (ix3 b k v))
    (h2 : ∀ (d k : Fin 1024), x2 (ix2 d k) = wq (ix2 d k))
    (h3 : ∀ (v o : Fin 1024), x3 (ix2 v o) = p (ix2 v o))
    (r : Fin 512) (o : Fin 1024) :
    k1_pay1 (F := Ideal) x0 x2 x1 x3 (ix3 (0 : Fin 1) r o) = G1at X M wq p b (row j r) o := by
  refine (Cert.KernelIdeal.PayValue.pay1_at x0 x2 x1 x3 r o).trans ?_
  unfold G1at
  refine congrArg₂ (· + ·) (h0 r o) (Finset.sum_congr rfl fun v _ => ?_)
  refine congrArg₂ (· * ·) (Finset.sum_congr rfl fun k _ => ?_) (h3 v o)
  refine congrArg₂ (· * ·) (Finset.sum_congr rfl fun d _ => ?_) (h1 k v)
  exact congrArg₂ (· * ·) (h0 r d) (h2 d k)

/-! ## The index maps, decided once over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point t is batch t / 8, sequence tile t % 8: the input block and the output block sit there, the per-batch
    matrix at its batch, the two weight matrices whole. -/
theorem idx_facts1 : ∀ t : Fin cfg1.N,
    win1_4.index t (0 : Fin 3) = t.val / 8 ∧ win1_4.index t (1 : Fin 3) = t.val % 8 ∧ win1_4.index t (2 : Fin 3) = 0
    ∧ win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-! ## What a point writes back -/

/-- What point t writes back is block t of the specification of the arrays as the region finds them. -/
theorem flushed1_eq (c : Dev nD) (t : Fin cfg1.N) :
    (dat1 (F := Ideal) V c).flushed 4 t
      = ((cfg1.win 4).blk t).view.read (Elt Ideal) (G1 (V c main_arg0) (V c main_v4) (V c main_v0) (V c main_v3)) := by
  show (cfg1.win 4).cut (grid1.coords t) ((dat1 V c).after 4 t) = _
  rw [after1_4]
  unfold out1_4
  rw [View.canon_unit_zero hz3]
  simp only [View.ld_unit_zero (S := S1x512x1024) hz3, View.ld_unit_zero (S := S1x1024x1024) hz3, View.ld_unit_zero (S := S1024x1024) hz2]
  have ht : t.val < 32 := lt_of_lt_of_eq t.isLt (N_1 : cfg1.N = 32)
  obtain ⟨e40, e41, e42, e00, e01, e02, e10, e11, e12, e20, e21, e30, e31⟩ := idx_facts1 t
  funext y
  show k1_pay1 (F := Ideal) (iblk1 V c 0 t) (iblk1 V c 2 t) (iblk1 V c 1 t) (iblk1 V c 3 t) y
    = G1 (V c main_arg0) (V c main_v4) (V c main_v0) (V c main_v3) (((cfg1.win 4).blk t).view.emb y)
  have hy0 : (y 0).val = 0 := by have h : (y 0).val < 1 := (y 0).isLt; omega
  have hy : (y : S1x512x1024.Idx) = ix3 (0 : Fin 1) (y 1) (y 2) := by
    funext a
    match a with
    | ⟨0, _⟩ => exact Fin.ext hy0
    | ⟨1, _⟩ => rfl
    | ⟨2, _⟩ => rfl
  refine (congrArg (k1_pay1 (F := Ideal) (iblk1 V c 0 t) (iblk1 V c 2 t) (iblk1 V c 1 t) (iblk1 V c 3 t)) hy).trans ?_
  refine (pay_block (V c main_arg0) (V c main_v4) (V c main_v0) (V c main_v3) (iblk1 V c 0 t) (iblk1 V c 1 t) (iblk1 V c 2 t) (iblk1 V c 3 t)
    ⟨t.val / 8, by omega⟩ ⟨t.val % 8, by omega⟩ ?_ ?_ ?_ ?_ (y 1) (y 2)).trans ?_
  · intro r d
    show V c main_arg0 (((cfg1.win 0).blk t).view.emb (ix3 (0 : Fin 1) r d)) = V c main_arg0 _
    refine congrArg _ ?_
    funext a; apply Fin.ext
    match a with
    | ⟨0, _⟩ => show win1_0.index t (0 : Fin 3) * 1 + 1 * 0 = t.val / 8; omega
    | ⟨1, _⟩ => show win1_0.index t (1 : Fin 3) * 512 + 1 * r.val = t.val % 8 * 512 + r.val; omega
    | ⟨2, _⟩ => show win1_0.index t (2 : Fin 3) * 1024 + 1 * d.val = d.val; omega
  · intro k v
    show V c main_v4 (((cfg1.win 1).blk t).view.emb (ix3 (0 : Fin 1) k v)) = V c main_v4 _
    refine congrArg _ ?_
    funext a; apply Fin.ext
    match a with
    | ⟨0, _⟩ => show win1_1.index t (0 : Fin 3) * 1 + 1 * 0 = t.val / 8; omega
    | ⟨1, _⟩ => show win1_1.index t (1 : Fin 3) * 1024 + 1 * k.val = k.val; omega
    | ⟨2, _⟩ => show win1_1.index t (2 : Fin 3) * 1024 + 1 * v.val = v.val; omega
  · intro d k
    show V c main_v0 (((cfg1.win 2).blk t).view.emb (ix2 d k)) = V c main_v0 _
    refine congrArg _ ?_
    funext a; apply Fin.ext
    match a with
    | ⟨0, _⟩ => show win1_2.index t (0 : Fin 2) * 1024 + 1 * d.val = d.val; omega
    | ⟨1, _⟩ => show win1_2.index t (1 : Fin 2) * 1024 + 1 * k.val = k.val; omega
  · intro v o
    show V c main_v3 (((cfg1.win 3).blk t).view.emb (ix2 v o)) = V c main_v3 _
    refine congrArg _ ?_
    funext a; apply Fin.ext
    match a with
    | ⟨0, _⟩ => show win1_3.index t (0 : Fin 2) * 1024 + 1 * v.val = v.val; omega
    | ⟨1, _⟩ => show win1_3.index t (1 : Fin 2) * 1024 + 1 * o.val = o.val; omega
  · refine (G1_ix3 _ _ _ _ _ _ _).symm.trans (congrArg _ ?_)
    funext a; apply Fin.ext
    match a with
    | ⟨0, _⟩ => show t.val / 8 = win1_4.index t (0 : Fin 3) * 1 + 1 * (y 0).val; omega
    | ⟨1, _⟩ => show t.val % 8 * 512 + (y 1).val = win1_4.index t (1 : Fin 3) * 512 + 1 * (y 1).val; omega
    | ⟨2, _⟩ => show (y 2).val = win1_4.index t (2 : Fin 3) * 1024 + 1 * (y 2).val; omega

/-! ## The tiles cover the array -/

/-- An index of the array is in point t's block iff each coordinate is in the block's range on its axis. -/
theorem mem_blk1 (t : Fin cfg1.N) (i : S4x4096x1024.Idx) :
    i ∈ ((cfg1.win 4).blk t).view.set ↔ ∀ a : Fin 3, win1_4.index t a * S1x512x1024.size a ≤ (i a).val
      ∧ (i a).val < win1_4.index t a * S1x512x1024.size a + S1x512x1024.size a := by
  show i ∈ ((View.whole main_v5).slice (win1_4.rect t)).set ↔ _
  rw [View.set_slice_whole, Rect.mem_set_unit]
  exact Iff.rfl

/-- Row s of batch b is in the block of point b·8 + s / 512, which writes back. -/
theorem cover1 (i : S4x4096x1024.Idx) :
    ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 1024 := (i 2).isLt
  have hN : (i 0).val * 8 + (i 1).val / 512 < cfg1.N := by rw [show cfg1.N = 32 from N_1]; omega
  refine ⟨⟨(i 0).val * 8 + (i 1).val / 512, hN⟩, flush1_4 _, ?_⟩
  rw [mem_blk1]
  obtain ⟨e40, e41, e42, -⟩ := idx_facts1 ⟨(i 0).val * 8 + (i 1).val / 512, hN⟩
  intro a
  match a with
  | ⟨0, _⟩ =>
    show win1_4.index ⟨(i 0).val * 8 + (i 1).val / 512, hN⟩ (0 : Fin 3) * 1 ≤ (i 0).val
      ∧ (i 0).val < win1_4.index ⟨(i 0).val * 8 + (i 1).val / 512, hN⟩ (0 : Fin 3) * 1 + 1
    rw [e40]; show ((i 0).val * 8 + (i 1).val / 512) / 8 * 1 ≤ (i 0).val ∧ (i 0).val < ((i 0).val * 8 + (i 1).val / 512) / 8 * 1 + 1
    omega
  | ⟨1, _⟩ =>
    show win1_4.index ⟨(i 0).val * 8 + (i 1).val / 512, hN⟩ (1 : Fin 3) * 512 ≤ (i 1).val
      ∧ (i 1).val < win1_4.index ⟨(i 0).val * 8 + (i 1).val / 512, hN⟩ (1 : Fin 3) * 512 + 512
    rw [e41]; show ((i 0).val * 8 + (i 1).val / 512) % 8 * 512 ≤ (i 1).val ∧ (i 1).val < ((i 0).val * 8 + (i 1).val / 512) % 8 * 512 + 512
    omega
  | ⟨2, _⟩ =>
    show win1_4.index ⟨(i 0).val * 8 + (i 1).val / 512, hN⟩ (2 : Fin 3) * 1024 ≤ (i 2).val
      ∧ (i 2).val < win1_4.index ⟨(i 0).val * 8 + (i 1).val / 512, hN⟩ (2 : Fin 3) * 1024 + 1024
    rw [e42]; omega

/-! ## The array after the region -/

/-- The output array ends holding the specification of the arrays the region finds. -/
theorem final1 (c : Dev nD) :
    (dat1 (F := Ideal) V c).arrAt 4 cfg1.N = G1 (V c main_arg0) (V c main_v4) (V c main_v0) (V c main_v3) :=
  (dat1 (F := Ideal) V c).arrAt_eq_of_cover 4 (G1 (V c main_arg0) (V c main_v4) (V c main_v0) (V c main_v3))
    (fun t _ => flushed1_eq V c t) cover1

end Cert.KernelIdeal.Hand

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Spec.lean ====
/- The specification of a linear attention block with a residual, and the law that makes its two
   evaluation orders agree.

   At the ideal reading a float is an extended real.  From an activation `x` (4 × 4096 × 1024) and four
   square weights `Wq`, `Wk`, `Wv`, `P` (1024 × 1024) put

     Q[b,s,k] = ∑ d, x[b,s,d] * Wq[d,k]      K[b,t,k] = ∑ d, x[b,t,d] * Wk[d,k]
     V[b,t,v] = ∑ d, x[b,t,d] * Wv[d,v]      M[b][k,v] = ∑ t, K[b,t,k] * V[b,t,v].

   One order contracts the sequence axis first,

     outK[b,s,o] = x[b,s,o] + ∑ v, (∑ k, Q[b,s,k] * M[b][k,v]) * P[v,o],

   the other forms the scores first,

     outR[b,s,o] = x[b,s,o] + ∑ v, (∑ t, (∑ k, Q[b,s,k] * K[b,t,k]) * V[b,t,v]) * P[v,o].

   Over the reals the two inner expressions agree by distributivity and an exchange of two finite sums.
   Over the extended reals multiplication does not distribute over addition in general, so the law is
   stated for entries that are real numbers, and proved by pulling the coercion `ℝ → EReal` outside
   every product and finite sum. -/
import Idealize.ShloMosaic.PureOps.Ideal
import Idealize.ShloMosaic.Lib.ValueIdx
import proofs.«149087_j71511205478733_2_alg».proof.Proof.LibRealLaw

noncomputable section

open Idealize.ShloMosaic Idealize.ShloMosaic.ValueIdx Cert.Attn.RealLaw

namespace Cert.Spec

/-- The activation's shape: batch 4, sequence 4096, width 1024. -/
abbrev SX : Shape := ⟨3, ![4, 4096, 1024]⟩
/-- A weight's shape: 1024 × 1024. -/
abbrev SW : Shape := ⟨2, ![1024, 1024]⟩

/-! ### The law over the reals and over real extended reals -/

section Law
variable {Kx Tx : Type*} [Fintype Kx] [Fintype Tx]

/-- Over the reals, `∑ k, q k * (∑ t, K t k * V t) = ∑ t, (∑ k, q k * K t k) * V t`: distribute the
    products over the inner sums, exchange the two sums, and compare term by term. -/
theorem swap_real (q : Kx → ℝ) (K : Tx → Kx → ℝ) (V : Tx → ℝ) :
    (∑ k, q k * (∑ t, K t k * V t)) = ∑ t, (∑ k, q k * K t k) * V t := by
  simp only [Finset.sum_mul, Finset.mul_sum]
  rw [Finset.sum_comm]
  refine Finset.sum_congr rfl fun t _ => Finset.sum_congr rfl fun k _ => ?_
  ring

/-- The same law over the extended reals, for real entries: both sides are images of real numbers,
    equal by the law over the reals. -/
theorem swap (q : Kx → EReal) (K : Tx → Kx → EReal) (V : Tx → EReal)
    (hq : ∀ k, IsReal (q k)) (hK : ∀ t k, IsReal (K t k)) (hV : ∀ t, IsReal (V t)) :
    (∑ k, q k * (∑ t, K t k * V t)) = ∑ t, (∑ k, q k * K t k) * V t := by
  choose q' hq' using hq
  choose K' hK' using hK
  choose V' hV' using hV
  simp only [hq', hK', hV', ← EReal.coe_mul, ← coe_sum]
  exact congrArg _ (swap_real q' K' V')

end Law

/-! ### The specification -/

/-- The query projection `Q[b,s,k] = ∑ d, x[b,s,d] * Wq[d,k]`. -/
def Qm (x : FVec Ideal SX .f32) (Wq : FVec Ideal SW .f32) (b : Fin 4) (s : Fin 4096) (k : Fin 1024) : EReal :=
  ∑ d : Fin 1024, x (ix3 b s d) * Wq (ix2 d k)

/-- The key projection `K[b,t,k] = ∑ d, x[b,t,d] * Wk[d,k]`. -/
def Km (x : FVec Ideal SX .f32) (Wk : FVec Ideal SW .f32) (b : Fin 4) (t : Fin 4096) (k : Fin 1024) : EReal :=
  ∑ d : Fin 1024, x (ix3 b t d) * Wk (ix2 d k)

/-- The value projection `V[b,t,v] = ∑ d, x[b,t,d] * Wv[d,v]`. -/
def Vm (x : FVec Ideal SX .f32) (Wv : FVec Ideal SW .f32) (b : Fin 4) (t : Fin 4096) (v : Fin 1024) : EReal :=
  ∑ d : Fin 1024, x (ix3 b t d) * Wv (ix2 d v)

/-- The key–value moment `M[b][k,v] = ∑ t, K[b,t,k] * V[b,t,v]`. -/
def Mm (x : FVec Ideal SX .f32) (Wk Wv : FVec Ideal SW .f32) (b : Fin 4) (k v : Fin 1024) : EReal :=
  ∑ t : Fin 4096, Km x Wk b t k * Vm x Wv b t v

/-- The output with the sequence axis contracted first. -/
def outK (x : FVec Ideal SX .f32) (Wq Wk Wv P : FVec Ideal SW .f32) (b : Fin 4) (s : Fin 4096) (o : Fin 1024) : EReal :=
  x (ix3 b s o) + ∑ v : Fin 1024, (∑ k : Fin 1024, Qm x Wq b s k * Mm x Wk Wv b k v) * P (ix2 v o)

/-- The output with the scores formed first. -/
def outR (x : FVec Ideal SX .f32) (Wq Wk Wv P : FVec Ideal SW .f32) (b : Fin 4) (s : Fin 4096) (o : Fin 1024) : EReal :=
  x (ix3 b s o) + ∑ v : Fin 1024,
    (∑ t : Fin 4096, (∑ k : Fin 1024, Qm x Wq b s k * Km x Wk b t k) * Vm x Wv b t v) * P (ix2 v o)

/-! ### The projections of real inputs are real -/

/-- `Q` is real when `x` and `Wq` are: a finite sum of products of reals. -/
theorem isReal_Qm (x : FVec Ideal SX .f32) (Wq : FVec Ideal SW .f32) (hx : ∀ i, IsReal (x i)) (hq : ∀ i, IsReal (Wq i))
    (b : Fin 4) (s : Fin 4096) (k : Fin 1024) : IsReal (Qm x Wq b s k) :=
  isReal_sum_mul (fun d => hx (ix3 b s d)) (fun d => hq (ix2 d k))

/-- `K` is real when `x` and `Wk` are. -/
theorem isReal_Km (x : FVec Ideal SX .f32) (Wk : FVec Ideal SW .f32) (hx : ∀ i, IsReal (x i)) (hk : ∀ i, IsReal (Wk i))
    (b : Fin 4) (t : Fin 4096) (k : Fin 1024) : IsReal (Km x Wk b t k) :=
  isReal_sum_mul (fun d => hx (ix3 b t d)) (fun d => hk (ix2 d k))

/-- `V` is real when `x` and `Wv` are. -/
theorem isReal_Vm (x : FVec Ideal SX .f32) (Wv : FVec Ideal SW .f32) (hx : ∀ i, IsReal (x i)) (hv : ∀ i, IsReal (Wv i))
    (b : Fin 4) (t : Fin 4096) (v : Fin 1024) : IsReal (Vm x Wv b t v) :=
  isReal_sum_mul (fun d => hx (ix3 b t d)) (fun d => hv (ix2 d v))

/-- `M` is real when `x`, `Wk` and `Wv` are. -/
theorem isReal_Mm (x : FVec Ideal SX .f32) (Wk Wv : FVec Ideal SW .f32) (hx : ∀ i, IsReal (x i))
    (hk : ∀ i, IsReal (Wk i)) (hv : ∀ i, IsReal (Wv i)) (b : Fin 4) (k v : Fin 1024) : IsReal (Mm x Wk Wv b k v) :=
  isReal_sum_mul (fun t => isReal_Km x Wk hx hk b t k) (fun t => isReal_Vm x Wv hx hv b t v)

/-! ### The two orders agree on real inputs -/

/-- For real `x`, `Wq`, `Wk`, `Wv` (and any `P`) the two evaluation orders give the same output: the
    residual summand and the right factor `P[v,o]` are common, and for each `v` the inner expressions
    agree by the law `swap`. -/
theorem outK_eq_outR (x : FVec Ideal SX .f32) (Wq Wk Wv P : FVec Ideal SW .f32)
    (hx : ∀ i, IsReal (x i)) (hq : ∀ i, IsReal (Wq i)) (hk : ∀ i, IsReal (Wk i)) (hv : ∀ i, IsReal (Wv i))
    (b : Fin 4) (s : Fin 4096) (o : Fin 1024) :
    outK x Wq Wk Wv P b s o = outR x Wq Wk Wv P b s o := by
  unfold outK outR
  refine congrArg (x (ix3 b s o) + ·) (Finset.sum_congr rfl fun v _ => congrArg (· * P (ix2 v o)) ?_)
  unfold Mm
  exact swap (fun k => Qm x Wq b s k) (fun t k => Km x Wk b t k) (fun t => Vm x Wv b t v)
    (fun k => isReal_Qm x Wq hx hq b s k) (fun t k => isReal_Km x Wk hx hk b t k)
    (fun t => isReal_Vm x Wv hx hv b t v)

end Cert.Spec

end
-- ==== Proof.KI.Glue.lean ====
/-
  The kernel's result at one element is the specification `outK` of the launched arrays.

  Region 1's output array holds, at (b, s, o), x(b,s,o) + Σ_v (Σ_k (Σ_d x(b,s,d)·wq(d,k))·M(b,k,v))·p(v,o) of the
  arrays region 1 finds: x as launched, wq and p the narrowed Wq and P — on the extended reals Wq and P themselves —
  and M what region 0 leaves, which is Σ_t K(b,t,k)·V(b,t,v) of the arrays region 0 finds: x as launched and the
  narrowed Wk, Wv. Substituting, the expression is `outK` word for word; no entry need be finite.
-/
import proofs.«149087_j71511205478733_2_alg».proof.Proof.KI.ValFacts
import proofs.«149087_j71511205478733_2_alg».proof.Proof.KI.Value1
import proofs.«149087_j71511205478733_2_alg».proof.Proof.Spec
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The key–value moment of the arrays region 0 finds is that of the launched arrays: x is as launched, and on the
    extended reals the narrowed Wk, Wv are Wk, Wv. -/
theorem Mm_entry (c : Dev nD) (b : Fin 4) (k v : Fin 1024) :
    Cert.Spec.Mm (V1 m ρ c main_arg0) (V1 m ρ c main_v1) (V1 m ρ c main_v2) b k v
      = Cert.Spec.Mm (m ((c : Thread nD τ).loc main_arg0)) (m ((c : Thread nD τ).loc main_arg2))
          (m ((c : Thread nD τ).loc main_arg3)) b k v := by
  unfold Cert.Spec.Mm Cert.Spec.Km Cert.Spec.Vm
  exact Finset.sum_congr rfl fun t _ => congrArg₂ (· * ·)
    (Finset.sum_congr rfl fun d _ => congrArg₂ (· * ·) (V1_main_arg0_at m ρ c _) (V1_main_v1_at m ρ c _))
    (Finset.sum_congr rfl fun d _ => congrArg₂ (· * ·) (V1_main_arg0_at m ρ c _) (V1_main_v2_at m ρ c _))

/-- If region 0's output array is the key–value moment of the arrays region 0 finds, the kernel's result at
    (b, s, o) is `outK` of the launched arrays. -/
theorem kernel_is_outK (c : Dev nD)
    (h0 : ∀ (b : Fin 4) (k v : Fin 1024),
      (dat0 (F := Ideal) (V1 m ρ) c).arrAt 3 cfg0.N (ix3 b k v)
        = Cert.Spec.Mm (V1 m ρ c main_arg0) (V1 m ρ c main_v1) (V1 m ρ c main_v2) b k v)
    (b : Fin 4) (s : Fin 4096) (o : Fin 1024) :
    (dat1 (F := Ideal) (V2 m ρ) c).arrAt 4 cfg1.N (ix3 b s o)
      = Cert.Spec.outK (m ((c : Thread nD τ).loc main_arg0)) (m ((c : Thread nD τ).loc main_arg1))
          (m ((c : Thread nD τ).loc main_arg2)) (m ((c : Thread nD τ).loc main_arg3)) (m ((c : Thread nD τ).loc main_arg4)) b s o := by
  refine (congrFun (final1 (V2 m ρ) c) (ix3 b s o)).trans ?_
  refine (G1_ix3 _ _ _ _ b s o).trans ?_
  unfold G1at Cert.Spec.outK
  refine congrArg₂ (· + ·) (V2_main_arg0_at m ρ c _) (Finset.sum_congr rfl fun v _ => ?_)
  refine congrArg₂ (· * ·) (Finset.sum_congr rfl fun k _ => ?_) (V2_main_v3_at m ρ c _)
  refine congrArg₂ (· * ·) ?_ ?_
  · unfold Cert.Spec.Qm
    exact Finset.sum_congr rfl fun d _ => congrArg₂ (· * ·) (V2_main_arg0_at m ρ c _) (V2_main_v0_at m ρ c _)
  · exact (congrFun (V2_main_v4 m ρ c) (ix3 b k v)).trans ((h0 b k v).trans (Mm_entry m ρ c b k v))

end Cert.KernelIdeal.Hand

end
-- ==== Proof.KI.Value0Cover.lean ====
/- Region 0's output array from its blocks: the per-batch matrix M[b] leaves the body's output buffer at the last
   sequence tile of batch b, the point 8·b + 7, which writes it back as block b of the array; the four blocks cover
   the array. What the buffer holds at those points is taken as a hypothesis here. -/
import proofs.«149087_j71511205478733_2_alg».proof.Proof.KI.Region0
import proofs.«149087_j71511205478733_2_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- The array of the per-batch matrices, index by index. -/
def G0 (x : FVec Ideal Cert.Spec.SX .f32) (wk wv : FVec Ideal Cert.Spec.SW .f32) : FVec Ideal S4x1024x1024 .f32 :=
  fun i => Cert.Spec.Mm x wk wv (i 0) (i 1) (i 2)

theorem G0_ix3 (x : FVec Ideal Cert.Spec.SX .f32) (wk wv : FVec Ideal Cert.Spec.SW .f32) (b : Fin 4) (k v : Fin 1024) :
    G0 x wk wv (ix3 b k v) = Cert.Spec.Mm x wk wv b k v := rfl

/-- The output window's block index at point t is the batch t / 8, decided over the grid. -/
theorem idx_facts0 : ∀ t : Fin cfg0.N,
    win0_3.index t (0 : Fin 3) = t.val / 8 ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- What a point that writes back writes is its block of the array of per-batch matrices. -/
theorem flushed0_eq (c : Dev nD)
    (hlast : ∀ (t : Fin cfg0.N) (h7 : t.val % 8 = 7) (k v : Fin 1024), (outsAt0 (F := Ideal) V c t.val t.isLt).1 (ix3 (0 : Fin 1) k v) = Cert.Spec.Mm (V c main_arg0) (V c main_v1) (V c main_v2) ⟨t.val / 8, by have := t.isLt; have : cfg0.N = 32 := N_0; omega⟩ k v)
    (t : Fin cfg0.N) (hf : (cfg0.win 3).flush t = true) :
    (dat0 (F := Ideal) V c).flushed 3 t
      = ((cfg0.win 3).blk t).view.read (Elt Ideal) (G0 (V c main_arg0) (V c main_v1) (V c main_v2)) := by
  have h7 : t.val % 8 = 7 := (flush0_3 t).mp hf
  have ht : t.val < 32 := lt_of_lt_of_eq t.isLt (N_0 : cfg0.N = 32)
  obtain ⟨e0, e1, e2⟩ := idx_facts0 t
  show (cfg0.win 3).cut (grid0.coords t) ((dat0 V c).after 3 t) = _
  rw [after0_3]
  funext y
  show (outsAt0 (F := Ideal) V c t.val t.isLt).1 y
    = G0 (V c main_arg0) (V c main_v1) (V c main_v2) (((cfg0.win 3).blk t).view.emb y)
  have hy0 : (y 0).val = 0 := by have h : (y 0).val < 1 := (y 0).isLt; omega
  have hy : (y : S1x1024x1024.Idx) = ix3 (0 : Fin 1) (y 1) (y 2) := by
    funext a
    match a with
    | ⟨0, _⟩ => exact Fin.ext hy0
    | ⟨1, _⟩ => rfl
    | ⟨2, _⟩ => rfl
  refine (congrArg (outsAt0 (F := Ideal) V c t.val t.isLt).1 hy).trans ?_
  refine (hlast t h7 (y 1) (y 2)).trans ?_
  refine (G0_ix3 _ _ _ _ _ _).symm.trans (congrArg _ ?_)
  funext a; apply Fin.ext
  match a with
  | ⟨0, _⟩ => show t.val / 8 = win0_3.index t (0 : Fin 3) * 1 + 1 * (y 0).val; omega
  | ⟨1, _⟩ => show (y 1).val = win0_3.index t (1 : Fin 3) * 1024 + 1 * (y 1).val; omega
  | ⟨2, _⟩ => show (y 2).val = win0_3.index t (2 : Fin 3) * 1024 + 1 * (y 2).val; omega

/-- An index of the array is in point t's block iff each coordinate is in the block's range on its axis. -/
theorem mem_blk0 (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v4).slice (win0_3.rect t)).set ↔ _
  rw [View.set_slice_whole, Rect.mem_set_unit]
  exact Iff.rfl

/-- Batch b's matrix is the block of point 8·b + 7, which writes back. -/
theorem cover0 (i : S4x1024x1024.Idx) :
    ∃ t : Fin cfg0.N, (cfg0.win 3).flush t = true ∧ i ∈ ((cfg0.win 3).blk t).view.set := by
  have h0 : (i 0).val < 4 := (i 0).isLt
  have h1 : (i 1).val < 1024 := (i 1).isLt
  have h2 : (i 2).val < 1024 := (i 2).isLt
  have hN : (i 0).val * 8 + 7 < cfg0.N := by rw [show cfg0.N = 32 from N_0]; omega
  refine ⟨⟨(i 0).val * 8 + 7, hN⟩, (flush0_3 _).mpr (by show ((i 0).val * 8 + 7) % 8 = 7; omega), ?_⟩
  rw [mem_blk0]
  obtain ⟨e0, e1, e2⟩ := idx_facts0 ⟨(i 0).val * 8 + 7, hN⟩
  intro a
  match a with
  | ⟨0, _⟩ =>
    show win0_3.index ⟨(i 0).val * 8 + 7, hN⟩ (0 : Fin 3) * 1 ≤ (i 0).val
      ∧ (i 0).val < win0_3.index ⟨(i 0).val * 8 + 7, hN⟩ (0 : Fin 3) * 1 + 1
    rw [e0]; show ((i 0).val * 8 + 7) / 8 * 1 ≤ (i 0).val ∧ (i 0).val < ((i 0).val * 8 + 7) / 8 * 1 + 1
    omega
  | ⟨1, _⟩ =>
    show win0_3.index ⟨(i 0).val * 8 + 7, hN⟩ (1 : Fin 3) * 1024 ≤ (i 1).val
      ∧ (i 1).val < win0_3.index ⟨(i 0).val * 8 + 7, hN⟩ (1 : Fin 3) * 1024 + 1024
    rw [e1]; omega
  | ⟨2, _⟩ =>
    show win0_3.index ⟨(i 0).val * 8 + 7, hN⟩ (2 : Fin 3) * 1024 ≤ (i 2).val
      ∧ (i 2).val < win0_3.index ⟨(i 0).val * 8 + 7, hN⟩ (2 : Fin 3) * 1024 + 1024
    rw [e2]; omega

/-- The array after region 0 holds the per-batch matrix at every index, given what the output buffer holds at each
    batch's last sequence tile. -/
theorem final0_of (c : Dev nD)
    (hlast : ∀ (t : Fin cfg0.N) (h7 : t.val % 8 = 7) (k v : Fin 1024), (outsAt0 (F := Ideal) V c t.val t.isLt).1 (ix3 (0 : Fin 1) k v) = Cert.Spec.Mm (V c main_arg0) (V c main_v1) (V c main_v2) ⟨t.val / 8, by have := t.isLt; have : cfg0.N = 32 := N_0; omega⟩ k v)
    (b : Fin 4) (k v : Fin 1024) :
    (dat0 (F := Ideal) V c).arrAt 3 cfg0.N (ix3 b k v) = Cert.Spec.Mm (V c main_arg0) (V c main_v1) (V c main_v2) b k v :=
  (congrFun ((dat0 (F := Ideal) V c).arrAt_eq_of_cover 3 (G0 (V c main_arg0) (V c main_v1) (V c main_v2))
    (fun t hf => flushed0_eq V c hlast t hf) cover0) (ix3 b k v)).trans (G0_ix3 _ _ _ b k v)

end Cert.KernelIdeal.Hand

end
-- ==== Proof.KI.Acc0.lean ====
/-
  Region 0 — the moment M = Kᵀ·V that the output block's buffer holds at a batch's last sequence tile.

  Each of the three control cases leaves in the accumulator the body's arithmetic over the point's blocks: at a batch's
  first tile zero plus the tile's contribution, elsewhere what the accumulator held plus the tile's contribution; the
  last tile also copies the accumulator into the output block under a leading unit axis. The point t = 8·b + s reads
  rows 512·s … 512·s + 511 of batch b of the activation and the two whole weights. So, by induction on s, the
  accumulator after point 8·b + s holds at (k, v) the sum of K(b,t,k)·V(b,t,v) over the rows t below 512·(s + 1),
  which at s = 7 is the sum over all 4096 rows.
-/
import proofs.«149087_j71511205478733_2_alg».proof.Proof.KI.Region0
import proofs.«149087_j71511205478733_2_alg».proof.Proof.KI.PayValue
import proofs.«149087_j71511205478733_2_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## Sums over the rows of a batch, tile by tile -/

/-- The rows of sequence tile `s` among the 4096 rows of a batch. -/
def tileRow (s : ℕ) (hs : s < 8) (r : Fin 512) : Fin 4096 := ⟨512 * s + r.val, by have := r.isLt; omega⟩

/-- A sum over the rows below tile `s + 1` is the sum over the rows below tile `s` plus the sum over tile `s`. -/
theorem sum_below_succ {M : Type*} [AddCommMonoid M] (f : Fin 4096 → M) (s : ℕ) (hs : s < 8) :
    ∑ t ∈ Finset.univ.filter (fun t : Fin 4096 => t.val < 512 * (s + 1)), f t
      = ∑ t ∈ Finset.univ.filter (fun t : Fin 4096 => t.val < 512 * s), f t + ∑ r : Fin 512, f (tileRow s hs r) := by
  have hinj : Function.Injective (tileRow s hs) := fun a b h => by
    have := congrArg Fin.val h
    simp only [tileRow] at this
    exact Fin.ext (by omega)
  have e : ∑ r : Fin 512, f (tileRow s hs r) = ∑ t ∈ Finset.univ.map ⟨tileRow s hs, hinj⟩, f t :=
    (Finset.sum_map Finset.univ ⟨tileRow s hs, hinj⟩ f).symm
  rw [e, ← Finset.sum_union]
  · refine Finset.sum_congr ?_ fun _ _ => rfl
    ext t
    simp only [Finset.mem_filter, Finset.mem_univ, true_and, Finset.mem_union, Finset.mem_map,
      Function.Embedding.coeFn_mk]
    constructor
    · intro h
      by_cases h' : t.val < 512 * s
      · exact Or.inl h'
      · exact Or.inr ⟨⟨t.val - 512 * s, by omega⟩, Fin.ext (by simp only [tileRow]; omega)⟩
    · rintro (h | ⟨r, rfl⟩)
      · omega
      · have := r.isLt; simp only [tileRow]; omega
  · rw [Finset.disjoint_left]
    intro t ht hm
    simp only [Finset.mem_filter, Finset.mem_univ, true_and] at ht
    simp only [Finset.mem_map, Finset.mem_univ, true_and, Function.Embedding.coeFn_mk] at hm
    obtain ⟨r, rfl⟩ := hm
    simp only [tileRow] at ht
    omega

/-- No row is below tile 0. -/
theorem sum_below_zero {M : Type*} [AddCommMonoid M] (f : Fin 4096 → M) :
    ∑ t ∈ Finset.univ.filter (fun t : Fin 4096 => t.val < 512 * 0), f t = 0 := by
  rw [Finset.filter_false_of_mem (fun t _ => by omega), Finset.sum_empty]

/-- Every row is below tile 8. -/
theorem sum_below_eight {M : Type*} [AddCommMonoid M] (f : Fin 4096 → M) :
    ∑ t ∈ Finset.univ.filter (fun t : Fin 4096 => t.val < 512 * (7 + 1)), f t = ∑ t : Fin 4096, f t := by
  rw [Finset.filter_true_of_mem (fun t _ => by have := t.isLt; omega)]

/-! ## What each case leaves, as the body's arithmetic -/

theorem hz2 : (![0, 0] : Fin 2 → Nat) = fun _ => 0 := funext fun a => by fin_cases a <;> rfl
theorem hz3 : (![0, 0, 0] : Fin 3 → Nat) = fun _ => 0 := funext fun a => by fin_cases a <;> rfl

/-- A batch's first tile leaves the accumulator at zero plus the tile's contribution. -/
theorem soutA_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : cond0_0 i) (hc1 : ¬cond0_1 i) (x0 : Vec F S1x512x1024 .f32) (x1 : Vec F S1024x1024 .bf16) (x2 : Vec F S1024x1024 .bf16) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  try sl_unfold_words
  rw [View.canon_cons_unit_zero hz2, View.readCov_unit_zero (S := S1024x1024) _ hz2]
  simp only [View.readAt_eq_ld, harg2.read_unread, harg3.read_unread, harg4.read_unread,
    View.ld_unit_zero (S := S1x512x1024) hz3, View.ld_unit_zero (S := S1024x1024) hz2]

/-- A middle tile leaves the accumulator at what it held plus the tile's contribution. -/
theorem soutB_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : ¬cond0_1 i) (x0 : Vec F S1x512x1024 .f32) (x1 : Vec F S1024x1024 .bf16) (x2 : Vec F S1024x1024 .bf16) (xs0 : Vec F S1024x1024 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  try sl_unfold_words
  rw [View.canon_unit_zero hz2]
  simp only [View.readAt_eq_ld, harg2.read_unread, harg3.read_unread, harg4.read_unread, harg6.read_unread,
    View.ld_unit_zero (S := S1x512x1024) hz3, View.ld_unit_zero (S := S1024x1024) hz2]

/-- So does a batch's last tile … -/
theorem soutC_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  try sl_unfold_words
  rw [View.canon_unit_zero hz2]
  simp only [View.readAt_eq_ld, harg2.read_unread, harg3.read_unread, harg4.read_unread, harg6.read_unread,
    View.ld_unit_zero (S := S1x512x1024) hz3, View.ld_unit_zero (S := S1024x1024) hz2]

/-- … which also copies the accumulator, under a leading unit axis, into the output block. -/
theorem outC_eq (c : Dev nD) (i : grid0.Coords) (arg2 : Memref sig .tc .vmem S1x512x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (hc0 : ¬cond0_0 i) (hc1 : cond0_1 i) (x0 : Vec F S1x512x1024 .f32) (x1 : Vec F S1024x1024 .bf16) (x2 : Vec F S1024x1024 .bf16) (xs0 : Vec F S1024x1024 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  try sl_unfold_words
  rw [View.canon_unit_zero hz3, View.readCov_unit_zero (S := S1024x1024) _ hz2]
  simp only [View.readAt_eq_ld, harg2.read_unread, harg3.read_unread, harg4.read_unread, harg6.read_unread,
    View.ld_unit_zero (S := S1x512x1024) hz3, View.ld_unit_zero (S := S1024x1024) hz2]

section Blocks
variable (V : (c : Dev nD) → (b : Ref sig .tc) → Buf (Elt F) ((c : Thread nD τ).loc b))

/-! ## The three cases at a point, over the point's blocks -/

theorem caseA_acc (c : Dev nD) (t : Fin cfg0.N) (h0 : t.val % 8 = 0) (h1 : ¬t.val % 8 = 7) :
    (caseA V c t h0 h1).2 = k0_pay2 (iblk0 V c 0 t) (iblk0 V c 1 t) (iblk0 V c 2 t) (k0_pay1 (F := F)) := by
  unfold caseA
  dsimp only
  exact soutA_eq c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (fun h => h1 ((hcond0_1 t).mp h)) (iblk0 V c 0 t) (iblk0 V c 1 t) (iblk0 V c 2 t)

theorem caseB_acc (c : Dev nD) (t : Fin cfg0.N) (h0 : ¬t.val % 8 = 0) (h1 : ¬t.val % 8 = 7) (xs0 : Vec F S1024x1024 .f32) :
    (caseB V c t h0 h1 xs0).2 = k0_pay2 (iblk0 V c 0 t) (iblk0 V c 1 t) (iblk0 V c 2 t) xs0 := by
  unfold caseB
  dsimp only
  exact soutB_eq c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (fun h => h1 ((hcond0_1 t).mp h)) (iblk0 V c 0 t) (iblk0 V c 1 t) (iblk0 V c 2 t) xs0

theorem caseC_acc (c : Dev nD) (t : Fin cfg0.N) (h0 : ¬t.val % 8 = 0) (h1 : t.val % 8 = 7) (xs0 : Vec F S1024x1024 .f32) :
    (caseC V c t h0 h1 xs0).2 = k0_pay2 (iblk0 V c 0 t) (iblk0 V c 1 t) (iblk0 V c 2 t) xs0 := by
  unfold caseC
  dsimp only
  exact soutC_eq c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk0 V c 0 t) (iblk0 V c 1 t) (iblk0 V c 2 t) xs0

theorem caseC_out (c : Dev nD) (t : Fin cfg0.N) (h0 : ¬t.val % 8 = 0) (h1 : t.val % 8 = 7) (xs0 : Vec F S1024x1024 .f32) :
    (caseC V c t h0 h1 xs0).1 = k0_pay3 (k0_pay2 (iblk0 V c 0 t) (iblk0 V c 1 t) (iblk0 V c 2 t) xs0) := by
  unfold caseC
  dsimp only
  exact outC_eq c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk0 V c 0 t) (iblk0 V c 1 t) (iblk0 V c 2 t) xs0

/-! ## The input blocks, read at an entry -/

/-- The activation window's block index at point `t` is (batch, tile, 0). -/
theorem widx0_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The activation's block at point `t = 8·b + s`, at (0, r, d), is the activation at (b, 512·s + r, d). -/
theorem iblk0_0_apply (c : Dev nD) (t : Fin cfg0.N) (r : Fin 512) (d : Fin 1024) (b : Fin 4) (q : Fin 4096)
    (hb : b.val = t.val / 8) (hq : q.val = 512 * (t.val % 8) + r.val) :
    (iblk0 V c 0 t : Vec F S1x512x1024 .f32) (ix3 (0 : Fin 1) r d)
      = (V c main_arg0 : S4x4096x1024.Idx → Elt F .f32) (ix3 b q d) := by
  obtain ⟨h0, h1, h2⟩ := widx0_0 t
  unfold iblk0
  rw [View.read_apply]
  show V c main_arg0 _ = V c main_arg0 _
  congr 1
  funext a
  apply Fin.ext
  match a with
  | ⟨0, _⟩ => show win0_0.index t 0 * 1 + 1 * 0 = b.val; rw [h0, hb]; omega
  | ⟨1, _⟩ => show win0_0.index t 1 * 512 + 1 * r.val = q.val; rw [h1, hq]; omega
  | ⟨2, _⟩ => show win0_0.index t 2 * 1024 + 1 * d.val = d.val; rw [h2]; omega

theorem widx0_1 : ∀ t : Fin cfg0.N, (fun a => win0_1.index t a * S1024x1024.size a) = fun _ => 0 :=
  (by decide +kernel : ∀ t : Fin grid0.N, (fun a => win0_1.index t a * S1024x1024.size a) = fun _ => 0)
theorem widx0_2 : ∀ t : Fin cfg0.N, (fun a => win0_2.index t a * S1024x1024.size a) = fun _ => 0 :=
  (by decide +kernel : ∀ t : Fin grid0.N, (fun a => win0_2.index t a * S1024x1024.size a) = fun _ => 0)

/-- A weight window's one block is the whole weight. -/
theorem iblk0_1_eq (c : Dev nD) (t : Fin cfg0.N) :
    (iblk0 V c 1 t : Vec F S1024x1024 .bf16) = (V c main_v1 : S1024x1024.Idx → Elt F .bf16) := by
  unfold iblk0
  exact Memref.read_access_unit_zero (Elt F) main_v1 (widx0_1 t) (fun a => by rw [congrFun (widx0_1 t) a]; simp) (V c main_v1)
theorem iblk0_2_eq (c : Dev nD) (t : Fin cfg0.N) :
    (iblk0 V c 2 t : Vec F S1024x1024 .bf16) = (V c main_v2 : S1024x1024.Idx → Elt F .bf16) := by
  unfold iblk0
  exact Memref.read_access_unit_zero (Elt F) main_v2 (widx0_2 t) (fun a => by rw [congrFun (widx0_2 t) a]; simp) (V c main_v2)

end Blocks

/-! ## The accumulator after each point, at the ideal values -/

section AtIdeal
variable (V : (c : Dev nD) → (b : Ref sig .tc) → Buf (Elt Ideal) ((c : Thread nD τ).loc b))

/-- One row's term of the moment: K(b,t,k)·V(b,t,v). -/
def kv (c : Dev nD) (b : Fin 4) (k v : Fin 1024) (t : Fin 4096) : EReal :=
  Cert.Spec.Km (V c main_arg0) (V c main_v1) b t k * Cert.Spec.Vm (V c main_arg0) (V c main_v2) b t v

/-- The contribution of one tile, over blocks that read the activation's rows of tile `s` of batch `b` and the two
    weights: the sum of the terms of the tile's rows. -/
theorem tile_eq_of (X : FVec Ideal Cert.Spec.SX .f32) (Wk Wv : FVec Ideal Cert.Spec.SW .f32)
    (x0 : Vec Ideal S1x512x1024 .f32) (x1 x2 : Vec Ideal S1024x1024 .bf16) (b : Fin 4) (s : ℕ) (hs : s < 8)
    (h0 : ∀ (r : Fin 512) (d : Fin 1024), x0 (ix3 (0 : Fin 1) r d) = X (ix3 b (tileRow s hs r) d))
    (h1 : ∀ i, x1 i = Wk i) (h2 : ∀ i, x2 i = Wv i) (k v : Fin 1024) :
    ∑ r : Fin 512, (∑ d : Fin 1024, x0 (ix3 (0 : Fin 1) r d) * x1 (ix2 d k)) * (∑ d : Fin 1024, x0 (ix3 (0 : Fin 1) r d) * x2 (ix2 d v))
      = ∑ r : Fin 512, Cert.Spec.Km X Wk b (tileRow s hs r) k * Cert.Spec.Vm X Wv b (tileRow s hs r) v := by
  refine Finset.sum_congr rfl fun r _ => ?_
  unfold Cert.Spec.Km Cert.Spec.Vm
  refine congrArg₂ (· * ·) (Finset.sum_congr rfl fun d _ => ?_) (Finset.sum_congr rfl fun d _ => ?_)
  · rw [h0 r d, h1]
  · rw [h0 r d, h2]

/-- What a point stores into the accumulator, at (k, v): what it held there plus the tile's rows' terms. -/
theorem step_val (c : Dev nD) (t : Fin cfg0.N) (xs0 : Vec Ideal S1024x1024 .f32) (b : Fin 4) (s : ℕ) (hs : s < 8)
    (ht : t.val = 8 * b.val + s) (k v : Fin 1024) :
    k0_pay2 (F := Ideal) (iblk0 V c 0 t) (iblk0 V c 1 t) (iblk0 V c 2 t) xs0 (ix2 k v)
      = xs0 (ix2 k v) + ∑ r : Fin 512, kv V c b k v (tileRow s hs r) := by
  have e1 := Cert.KernelIdeal.PayValue.pay2_at (iblk0 V c 0 t) (iblk0 V c 1 t) (iblk0 V c 2 t) xs0 k v
  have e2 := tile_eq_of (V c main_arg0) (V c main_v1) (V c main_v2) (iblk0 V c 0 t) (iblk0 V c 1 t) (iblk0 V c 2 t) b s hs
    (fun r d => iblk0_0_apply V c t r d b (tileRow s hs r) (by omega) (by simp only [tileRow]; omega))
    (fun i => congrFun (iblk0_1_eq V c t) i) (fun i => congrFun (iblk0_2_eq V c t) i) k v
  exact e1.trans (congrArg (xs0 (ix2 k v) + ·) e2)

/-- THE INVARIANT: after point `8·b + s` the accumulator holds, at (k, v), the sum of the terms of the rows of batch `b`
    below tile `s + 1`. -/
theorem acc_inv (c : Dev nD) (b : Fin 4) (k v : Fin 1024) :
    ∀ (s : ℕ) (hs : s < 8) (n : ℕ) (hn : n < cfg0.N), n = 8 * b.val + s →
      (outsAt0 V c n hn).2 (ix2 k v) = ∑ t ∈ Finset.univ.filter (fun t : Fin 4096 => t.val < 512 * (s + 1)), kv V c b k v t
  | 0, hs, n, hn, e => by
    have h0 : (⟨n, hn⟩ : Fin cfg0.N).val % 8 = 0 := by show n % 8 = 0; omega
    have h1 : ¬(⟨n, hn⟩ : Fin cfg0.N).val % 8 = 7 := by show ¬n % 8 = 7; omega
    refine (congrFun (congrArg Prod.snd (outsAt0_A V c ⟨n, hn⟩ h0 h1)) (ix2 k v)).trans ?_
    refine (congrFun (caseA_acc V c ⟨n, hn⟩ h0 h1) (ix2 k v)).trans ?_
    refine (step_val V c ⟨n, hn⟩ (k0_pay1 (F := Ideal)) b 0 hs e k v).trans ?_
    rw [Cert.KernelIdeal.PayValue.pay1_zero, zero_add, sum_below_succ _ 0 hs, sum_below_zero, zero_add]
  | s + 1, hs, n, hn, e => by
    have h0 : ¬(⟨n, hn⟩ : Fin cfg0.N).val % 8 = 0 := by show ¬n % 8 = 0; omega
    have ih := acc_inv c b k v s (by omega) (n - 1) (Nat.lt_of_le_of_lt (Nat.sub_le _ _) hn) (by omega)
    by_cases h1 : (⟨n, hn⟩ : Fin cfg0.N).val % 8 = 7
    · refine (congrFun (congrArg Prod.snd (outsAt0_C V c ⟨n, hn⟩ h0 h1)) (ix2 k v)).trans ?_
      refine (congrFun (caseC_acc V c ⟨n, hn⟩ h0 h1 _) (ix2 k v)).trans ?_
      refine (step_val V c ⟨n, hn⟩ _ b (s + 1) hs e k v).trans ?_
      rw [sum_below_succ _ (s + 1) hs]
      exact congrArg (· + _) ih
    · refine (congrFun (congrArg Prod.snd (outsAt0_B V c ⟨n, hn⟩ h0 h1)) (ix2 k v)).trans ?_
      refine (congrFun (caseB_acc V c ⟨n, hn⟩ h0 h1 _) (ix2 k v)).trans ?_
      refine (step_val V c ⟨n, hn⟩ _ b (s + 1) hs e k v).trans ?_
      rw [sum_below_succ _ (s + 1) hs]
      exact congrArg (· + _) ih

/-- AT A BATCH'S LAST TILE the output block's buffer holds the moment: at (0, k, v), the sum over all 4096 rows. -/
theorem out_last (c : Dev nD) (t : Fin cfg0.N) (h7 : t.val % 8 = 7) (k v : Fin 1024) :
    (outsAt0 (F := Ideal) V c t.val t.isLt).1 (ix3 (0 : Fin 1) k v)
      = Cert.Spec.Mm (V c main_arg0) (V c main_v1) (V c main_v2)
          ⟨t.val / 8, by have := t.isLt; have : cfg0.N = 32 := N_0; omega⟩ k v := by
  have hN : cfg0.N = 32 := N_0
  have h0 : ¬t.val % 8 = 0 := by omega
  refine (congrFun (congrArg Prod.fst (outsAt0_C V c t h0 h7)) (ix3 (0 : Fin 1) k v)).trans ?_
  refine (congrFun (caseC_out V c t h0 h7 _) (ix3 (0 : Fin 1) k v)).trans ?_
  refine (Cert.KernelIdeal.PayValue.pay3_at _ k v).trans ?_
  refine ((congrFun (congrArg Prod.snd (outsAt0_C V c t h0 h7)) (ix2 k v)).trans
    (congrFun (caseC_acc V c t h0 h7 _) (ix2 k v))).symm.trans ?_
  refine (acc_inv V c ⟨t.val / 8, by have := t.isLt; omega⟩ k v 7 (by decide) t.val t.isLt
    (by show t.val = 8 * (t.val / 8) + 7; omega)).trans ?_
  rw [sum_below_eight]
  exact Finset.sum_congr rfl fun _ _ => rfl

end AtIdeal

end Cert.KernelIdeal.Hand

end
-- ==== Proof.RefSide.lean ====
/- The reference program's result, read at one element, is the specification `outR`.

   The reference computes `Q = x·Wq`, `K = x·Wk`, `V = x·Wv`, the scores `Q·Kᵀ` per batch, the context
   `scores·V` per batch, the projection by `P`, and adds `x`.  Each contraction read at an index is a
   finite sum of products of its operands at the indices the contraction pairs; those indices, written
   by coordinates, are the ones the specification names. -/
import proofs.«149087_j71511205478733_2_alg».proof.Proof.Spec
import proofs.«149087_j71511205478733_2_alg».proof.Proof.Gen.ReferenceIdeal.Read

noncomputable section

open Idealize.ShloMosaic Idealize.ShloMosaic.ValueIdx Idealize.SL.Sem
open Cert.ReferenceIdeal Cert.ReferenceIdeal.Read Cert.Spec

namespace Cert.RefSide

/-! ### The paired indices, by coordinates -/

/-- A projection's left index at output `(b, s, k)` and contraction coordinate `d` is `(b, s, d)`. -/
theorem lidx0 (b : Fin 4) (s : Fin 4096) (k d : Fin 1024) : lidx_main_v0 (ix3 b s k) d = ix3 b s d :=
  funext fun a => by match a with | ⟨0, _⟩ => rfl | ⟨1, _⟩ => rfl | ⟨2, _⟩ => rfl
/-- A projection's right index at output `(b, s, k)` and contraction coordinate `d` is `(d, k)`. -/
theorem ridx0 (b : Fin 4) (s : Fin 4096) (k d : Fin 1024) : ridx_main_v0 (ix3 b s k) d = ix2 d k :=
  funext fun a => by match a with | ⟨0, _⟩ => rfl | ⟨1, _⟩ => rfl
theorem lidx1 (b : Fin 4) (s : Fin 4096) (k d : Fin 1024) : lidx_main_v1 (ix3 b s k) d = ix3 b s d :=
  funext fun a => by match a with | ⟨0, _⟩ => rfl | ⟨1, _⟩ => rfl | ⟨2, _⟩ => rfl
theorem ridx1 (b : Fin 4) (s : Fin 4096) (k d : Fin 1024) : ridx_main_v1 (ix3 b s k) d = ix2 d k :=
  funext fun a => by match a with | ⟨0, _⟩ => rfl | ⟨1, _⟩ => rfl
theorem lidx2 (b : Fin 4) (s : Fin 4096) (k d : Fin 1024) : lidx_main_v2 (ix3 b s k) d = ix3 b s d :=
  funext fun a => by match a with | ⟨0, _⟩ => rfl | ⟨1, _⟩ => rfl | ⟨2, _⟩ => rfl
theorem ridx2 (b : Fin 4) (s : Fin 4096) (k d : Fin 1024) : ridx_main_v2 (ix3 b s k) d = ix2 d k :=
  funext fun a => by match a with | ⟨0, _⟩ => rfl | ⟨1, _⟩ => rfl
/-- The scores' left index at `(b, s, t)` and contraction coordinate `k` is `(b, s, k)`. -/
theorem lidx3 (b : Fin 4) (s t : Fin 4096) (k : Fin 1024) : lidx_main_v3 (ix3 b s t) k = ix3 b s k :=
  funext fun a => by match a with | ⟨0, _⟩ => rfl | ⟨1, _⟩ => rfl | ⟨2, _⟩ => rfl
/-- The scores' right index at `(b, s, t)` and contraction coordinate `k` is `(b, t, k)`. -/
theorem ridx3 (b : Fin 4) (s t : Fin 4096) (k : Fin 1024) : ridx_main_v3 (ix3 b s t) k = ix3 b t k :=
  funext fun a => by match a with | ⟨0, _⟩ => rfl | ⟨1, _⟩ => rfl | ⟨2, _⟩ => rfl
/-- The context's left index at `(b, s, v)` and contraction coordinate `t` is `(b, s, t)`. -/
theorem lidx4 (b : Fin 4) (s : Fin 4096) (v : Fin 1024) (t : Fin 4096) : lidx_main_v4 (ix3 b s v) t = ix3 b s t :=
  funext fun a => by match a with | ⟨0, _⟩ => rfl | ⟨1, _⟩ => rfl | ⟨2, _⟩ => rfl
/-- The context's right index at `(b, s, v)` and contraction coordinate `t` is `(b, t, v)`. -/
theorem ridx4 (b : Fin 4) (s : Fin 4096) (v : Fin 1024) (t : Fin 4096) : ridx_main_v4 (ix3 b s v) t = ix3 b t v :=
  funext fun a => by match a with | ⟨0, _⟩ => rfl | ⟨1, _⟩ => rfl | ⟨2, _⟩ => rfl
/-- The output projection's left index at `(b, s, o)` and contraction coordinate `v` is `(b, s, v)`. -/
theorem lidx5 (b : Fin 4) (s : Fin 4096) (o v : Fin 1024) : lidx_main_v5 (ix3 b s o) v = ix3 b s v :=
  funext fun a => by match a with | ⟨0, _⟩ => rfl | ⟨1, _⟩ => rfl | ⟨2, _⟩ => rfl
/-- The output projection's right index at `(b, s, o)` and contraction coordinate `v` is `(v, o)`. -/
theorem ridx5 (b : Fin 4) (s : Fin 4096) (o v : Fin 1024) : ridx_main_v5 (ix3 b s o) v = ix2 v o :=
  funext fun a => by match a with | ⟨0, _⟩ => rfl | ⟨1, _⟩ => rfl

/-! ### The stages, at an element -/

variable (x0 : (⟨S4x4096x1024, .f32⟩ : BufTy).Contents (Elt Ideal))
variable (x1 x2 x3 x4 : (⟨S1024x1024, .f32⟩ : BufTy).Contents (Elt Ideal))

/-- `x·Wq` at `(b, s, k)` is `Q[b,s,k]`. -/
theorem v0_eq (b : Fin 4) (s : Fin 4096) (k : Fin 1024) :
    val_main_v0 (F := Ideal) x0 x1 (ix3 b s k) = Qm x0 x1 b s k :=
  (val_main_v0_apply x0 x1 (ix3 b s k)).trans
    (Finset.sum_congr rfl fun d _ => by rw [lidx0, ridx0])

/-- `x·Wk` at `(b, t, k)` is `K[b,t,k]`. -/
theorem v1_eq (b : Fin 4) (t : Fin 4096) (k : Fin 1024) :
    val_main_v1 (F := Ideal) x0 x2 (ix3 b t k) = Km x0 x2 b t k :=
  (val_main_v1_apply x0 x2 (ix3 b t k)).trans
    (Finset.sum_congr rfl fun d _ => by rw [lidx1, ridx1])

/-- `x·Wv` at `(b, t, v)` is `V[b,t,v]`. -/
theorem v2_eq (b : Fin 4) (t : Fin 4096) (v : Fin 1024) :
    val_main_v2 (F := Ideal) x0 x3 (ix3 b t v) = Vm x0 x3 b t v :=
  (val_main_v2_apply x0 x3 (ix3 b t v)).trans
    (Finset.sum_congr rfl fun d _ => by rw [lidx2, ridx2])

/-- The scores at `(b, s, t)` are `∑ k, Q[b,s,k] * K[b,t,k]`. -/
theorem v3_eq (b : Fin 4) (s t : Fin 4096) :
    val_main_v3 (F := Ideal) x0 x1 x2 (ix3 b s t) = ∑ k : Fin 1024, Qm x0 x1 b s k * Km x0 x2 b t k :=
  (val_main_v3_apply x0 x1 x2 (ix3 b s t)).trans
    (Finset.sum_congr rfl fun k _ => by rw [lidx3, ridx3, v0_eq, v1_eq])

/-- The context at `(b, s, v)` is `∑ t, (∑ k, Q[b,s,k] * K[b,t,k]) * V[b,t,v]`. -/
theorem v4_eq (b : Fin 4) (s : Fin 4096) (v : Fin 1024) :
    val_main_v4 (F := Ideal) x0 x1 x2 x3 (ix3 b s v)
      = ∑ t : Fin 4096, (∑ k : Fin 1024, Qm x0 x1 b s k * Km x0 x2 b t k) * Vm x0 x3 b t v :=
  (val_main_v4_apply x0 x1 x2 x3 (ix3 b s v)).trans
    (Finset.sum_congr rfl fun t _ => by rw [lidx4, ridx4, v3_eq, v2_eq])

/-- The projected context at `(b, s, o)`. -/
theorem v5_eq (b : Fin 4) (s : Fin 4096) (o : Fin 1024) :
    val_main_v5 (F := Ideal) x0 x1 x2 x3 x4 (ix3 b s o)
      = ∑ v : Fin 1024,
          (∑ t : Fin 4096, (∑ k : Fin 1024, Qm x0 x1 b s k * Km x0 x2 b t k) * Vm x0 x3 b t v) * x4 (ix2 v o) :=
  (val_main_v5_apply x0 x1 x2 x3 x4 (ix3 b s o)).trans
    (Finset.sum_congr rfl fun v _ => by rw [lidx5, ridx5, v4_eq])

/-- The reference's result at `(b, s, o)` is the specification `outR`: the residual `x[b,s,o]` plus
    the projected context. -/
theorem ref_eq (b : Fin 4) (s : Fin 4096) (o : Fin 1024) :
    Cert.ReferenceIdeal.Read.val_main_v6 x0 x1 x2 x3 x4 (ix3 b s o) = Cert.Spec.outR x0 x1 x2 x3 x4 b s o := by
  rw [val_main_v6_apply, Ideal.addf_def, v5_eq]
  rfl

end Cert.RefSide

end
-- ==== Proof.Finite.lean ====
/- The precondition `finite_inputs`, read back: every entry of the five input arrays is a real number.

   The predicate computes, for each array `a`, the conjunction over all entries of `|a[i]| < +∞`, and
   the conjunction of the five results.  At the ideal reading an entry is an extended real, `|x|` is
   `max x (-x)`, and the pattern `0x7F800000` denotes `⊤`; `max x (-x) < ⊤` excludes `x = ⊤` and
   `x = ⊥`, so `x` is the image of a real number. -/
import proofs.«149087_j71511205478733_2_alg».proof.Pre_finite_inputs
import proofs.«149087_j71511205478733_2_alg».proof.Proof.LibRealLaw
import Idealize.ShloMosaic.Lib.ReduceAll
import Idealize.ShloMosaic.Lib.ValueIdx

noncomputable section

open Idealize.ShloMosaic Idealize.ShloMosaic.ValueIdx Cert.Attn.RealLaw
open Cert.Pre_finite_inputs

namespace Cert.Finite

/-- The single-precision pattern `0x7F800000` (sign `0`, exponent field all ones, significand field `0`)
    denotes `+∞`. -/
theorem inf_bits : Ideal.ofBits .f32 0x7F800000#32 = (⊤ : EReal) := by
  simp [Ideal.ofBits, Ideal.ieee]

/-- A one-bit word made from a Boolean is `1` exactly when the Boolean is true. -/
theorem ofBool_eq_one (b : Bool) : BitVec.ofBool b = 1#1 ↔ b = true := by cases b <;> decide

/-- An extended real whose absolute value `max x (-x)` is below `+∞` is a real number. -/
theorem isReal_of_abs_lt (x : EReal)
    (h : Ideal.cmp .olt (max x (-x)) (Ideal.ofBits .f32 0x7F800000#32) = 1#1) : IsReal x := by
  rw [inf_bits] at h
  unfold Ideal.cmp at h
  rw [ofBool_eq_one] at h
  simp only [decide_eq_true_eq] at h
  induction x using EReal.rec with
  | bot => simp at h
  | top => simp at h
  | coe r => exact ⟨r, rfl⟩

/-- The scalar shape has one index. -/
instance : Subsingleton S_.Idx := ⟨fun _ _ => funext fun d => d.elim0⟩

variable [Cert.Pre_finite_inputs.Facts]

/-- If `finite_inputs` of the five arrays is true then every entry of each array is real. -/
theorem real_of_pre (a0 : FVec Ideal S4x4096x1024 .f32) (a1 a2 a3 a4 : FVec Ideal S1024x1024 .f32)
    (h : Cert.Pre_finite_inputs.fn (F := Ideal) a0 a1 a2 a3 a4 = (fun _ => 1#1)) :
    (∀ i, IsReal (a0 i)) ∧ (∀ i, IsReal (a1 i)) ∧ (∀ i, IsReal (a2 i)) ∧ (∀ i, IsReal (a3 i)) ∧ (∀ i, IsReal (a4 i)) := by
  have e := congrFun h ix0
  dsimp only [fn, fn_part1] at e
  simp only [andi, IntOp.andi_eq_one] at e
  obtain ⟨⟨⟨⟨h0, h1⟩, h2⟩, h3⟩, h4⟩ := e
  refine ⟨fun i => ?_, fun i => ?_, fun i => ?_, fun i => ?_, fun i => ?_⟩
  · exact isReal_of_abs_lt _ (Host.reduce_andi_all _ _ _ _ _ h0 i)
  · exact isReal_of_abs_lt _ (Host.reduce_andi_all _ _ _ _ _ h1 i)
  · exact isReal_of_abs_lt _ (Host.reduce_andi_all _ _ _ _ _ h2 i)
  · exact isReal_of_abs_lt _ (Host.reduce_andi_all _ _ _ _ _ h3 i)
  · exact isReal_of_abs_lt _ (Host.reduce_andi_all _ _ _ _ _ h4 i)

end Cert.Finite

end
-- ==== Proof.Bridge.lean ====
/- Under the precondition `finite_inputs`, the reference program's result at one element is the
   specification `outK`: the reference computes `outR`, the precondition makes every input entry a real
   number, and on real inputs `outK = outR`. -/
import proofs.«149087_j71511205478733_2_alg».proof.Proof.Spec
import proofs.«149087_j71511205478733_2_alg».proof.Proof.RefSide
import proofs.«149087_j71511205478733_2_alg».proof.Proof.Finite

noncomputable section

open Idealize.ShloMosaic Idealize.ShloMosaic.ValueIdx Idealize.SL.Sem

namespace Cert.Bridge

variable [Cert.Pre_finite_inputs.Facts]

/-- If `finite_inputs` holds of the five arrays, the reference's result at `(b, s, o)` is `outK` there. -/
theorem ref_is_outK (a0 : (⟨Cert.ReferenceIdeal.S4x4096x1024, .f32⟩ : BufTy).Contents (Elt Ideal))
    (a1 a2 a3 a4 : (⟨Cert.ReferenceIdeal.S1024x1024, .f32⟩ : BufTy).Contents (Elt Ideal))
    (h : Cert.Pre_finite_inputs.fn (F := Ideal) a0 a1 a2 a3 a4 = (fun _ => 1#1))
    (b : Fin 4) (s : Fin 4096) (o : Fin 1024) :
    Cert.ReferenceIdeal.Read.val_main_v6 a0 a1 a2 a3 a4 (ix3 b s o) = Cert.Spec.outK a0 a1 a2 a3 a4 b s o := by
  obtain ⟨hx, hq, hk, hv, -⟩ := Cert.Finite.real_of_pre a0 a1 a2 a3 a4 h
  exact (Cert.RefSide.ref_eq a0 a1 a2 a3 a4 b s o).trans
    (Cert.Spec.outK_eq_outR a0 a1 a2 a3 a4 hx hq hk hv b s o).symm

end Cert.Bridge

end
-- ==== Proof.lean ====
/-
  The certificate of the two-region linear-attention kernel against its plain reference.

  Kernel: per batch b, region 0 accumulates M[b] = Kᵀ·V over the eight sequence tiles (K = x[b]·Wk, V = x[b]·Wv) and
  region 1 computes out = x + ((x·Wq)·M)·P. Reference: out = x + (((x·Wq)·Kᵀ)·V)·P. On the extended reals the two
  arrangements agree entry by entry because Σ_k q_k·(Σ_t K_tk·V_tv) = Σ_t (Σ_k q_k·K_tk)·V_tv whenever every factor
  is a real number — distributivity and an exchange of two finite sums — and the precondition makes every input
  entry real. The frames (each program runs to the end, faults nowhere, leaves its arguments unchanged) come from
  running the program as a chain of segments: the weights' casts, then each region's pipeline with its body's run;
  the word-level program's frame is the same argument read at the other float instance.
-/
import proofs.«149087_j71511205478733_2_alg».proof.Defs
import proofs.«149087_j71511205478733_2_alg».proof.Proof.Gen.Kernel
import proofs.«149087_j71511205478733_2_alg».proof.Proof.Gen.KernelIdeal
import proofs.«149087_j71511205478733_2_alg».proof.Proof.Gen.ReferenceIdeal
import proofs.«149087_j71511205478733_2_alg».proof.Proof.Gen.ReferenceIdeal.Run
import proofs.«149087_j71511205478733_2_alg».proof.Proof.Gen.ReferenceIdeal.Read
import proofs.«149087_j71511205478733_2_alg».proof.Proof.Gen.Pre_finite_inputs
import proofs.«149087_j71511205478733_2_alg».proof.Proof.K.Frame
import proofs.«149087_j71511205478733_2_alg».proof.Proof.KI.Frame
import proofs.«149087_j71511205478733_2_alg».proof.Proof.KI.Glue
import proofs.«149087_j71511205478733_2_alg».proof.Proof.KI.Value0Cover
import proofs.«149087_j71511205478733_2_alg».proof.Proof.KI.Acc0
import proofs.«149087_j71511205478733_2_alg».proof.Proof.Bridge
import Idealize.ShloMosaic.Adequacy
import Idealize.ShloMosaic.Init

noncomputable section

namespace Cert.Proof

open Idealize.ShloMosaic Idealize.ShloMosaic.ValueIdx Idealize.SL.Sem

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: entry (b, s, o) of either is
    x(b,s,o) + Σ_v (Σ_k Q(b,s,k)·M(b,k,v))·P(v,o) with M(b,k,v) = Σ_t K(b,t,k)·V(b,t,v). -/
theorem algebraic : Cert.algebraic_KernelIdeal_ReferenceIdeal := by
  intro m ρ m' ρ' hpre hagree
  refine ⟨fun c => (Cert.KernelIdeal.Hand.dat1 (F := Ideal) (Cert.KernelIdeal.Hand.V2 m ρ) c).arrAt 4 Cert.KernelIdeal.cfg1.N,
    Cert.KernelIdeal.Hand.frame_val m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  funext i
  obtain ⟨b, s, o, rfl⟩ : ∃ (b : Fin 4) (s : Fin 4096) (o : Fin 1024), i = ix3 b s o := ⟨i 0, i 1, i 2, eq_ix3 i⟩
  -- the kernel's entry: region 1's rows over region 0's array, which is M
  refine Eq.trans ?_ (Cert.KernelIdeal.Hand.kernel_is_outK m ρ c
    (fun b k v => Cert.KernelIdeal.Hand.final0_of (Cert.KernelIdeal.Hand.V1 m ρ) c
      (Cert.KernelIdeal.Hand.out_last (Cert.KernelIdeal.Hand.V1 m ρ) c) b k v) b s o).symm
  -- the reference's entry: the same sums in the other arrangement, equal on real entries
  refine (congrFun (Cert.ReferenceIdeal.Read.val_main_v6_eq (F := Ideal) _ _ _ _ _) _).trans ?_
  exact Cert.Bridge.ref_is_outK _ _ _ _ _ (hpre c) b s o

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
